-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S1000x10000 : Shape := ⟨2, ![1000, 10000]⟩
abbrev S1000x64 : Shape := ⟨2, ![1000, 64]⟩

abbrev nBuf : Space → Nat
  | .hbm => 17
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .bf16⟩
  | .hbm, ⟨9, _⟩ => ⟨S128x64, .bf16⟩
  | .hbm, ⟨10, _⟩ => ⟨S64x64, .bf16⟩
  | .hbm, ⟨11, _⟩ => ⟨S1x128, .f32⟩
  | .hbm, ⟨12, _⟩ => ⟨S1x64, .f32⟩
  | .hbm, ⟨13, _⟩ => ⟨S1x64, .f32⟩
  | .hbm, ⟨14, _⟩ => ⟨S10000x64, .bf16⟩
  | .hbm, ⟨15, _⟩ => ⟨S10000x10000, .bf16⟩
  | .hbm, ⟨16, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .bf16⟩
  | .local _ .vmem, ⟨4, _⟩ => ⟨S1x128, .f32⟩
  | .local _ .vmem, ⟨5, _⟩ => ⟨S128x64, .bf16⟩
  | .local _ .vmem, ⟨6, _⟩ => ⟨S200x64, .bf16⟩
  | .local _ .vmem, ⟨7, _⟩ => ⟨S200x64, .bf16⟩
  | .local _ .vmem, ⟨8, _⟩ => ⟨S200x10000, .bf16⟩
  | .local _ .vmem, ⟨9, _⟩ => ⟨S200x10000, .bf16⟩
  | .local _ .vmem, ⟨10, _⟩ => ⟨S10000x128, .bf16⟩
  | .local _ .vmem, ⟨11, _⟩ => ⟨S1000x10000, .bf16⟩
  | .local _ .vmem, ⟨12, _⟩ => ⟨S1000x10000, .bf16⟩
  | .local _ .vmem, ⟨13, _⟩ => ⟨S10000x64, .bf16⟩
  | .local _ .vmem, ⟨14, _⟩ => ⟨S1x64, .f32⟩
  | .local _ .vmem, ⟨15, _⟩ => ⟨S64x64, .bf16⟩
  | .local _ .vmem, ⟨16, _⟩ => ⟨S1x64, .f32⟩
  | .local _ .vmem, ⟨17, _⟩ => ⟨S1000x64, .f32⟩
  | .local _ .vmem, ⟨18, _⟩ => ⟨S1000x64, .f32⟩
  | .local _ .vmem, ⟨19, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1000_i32 : BitVec 32 := 1000#32
  let v22 : BitVec 32 := Scalar.muli arg1 c1000_i32
  let v23 : Index := Scalar.indexCast v22
  let c0_11 : Index := 0#32
  ![v23.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  h_S1000x64 : 0 < S1000x64.numel
  shapeCasts_S1000x64_S1000x64 : S1000x64.ShapeCasts S1000x64
  inb_S1000x64_S1000x64_0_0 : ∀ a, (![0, 0] : Fin 2 → Nat) a + S1000x64.size a ≤ S1000x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S1000x10000_S10000x64_S1000x64_1_0_0_1_n_n_wf : DotDims.WF S1000x10000 S10000x64 S1000x64 [1] [0] [0] [1] [] []
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x64.size a ≤ S10000x64.size a
  hwx0_5 : ∀ i : grid0.Coords, EltTy.bits .bf16 = 32 ∨ (Rect.block (s := S10000x64) S200x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .bf16 = 32 ∨ (Rect.block (s := S10000x10000) S200x10000.size (cc0_transform_6 i) (hinb0_6 i)).WholeWords (EltTy.packing .bf16)
  hrank1 : 0 < grid1.rank
  k1_off1_inb : ∀ i : grid1.Coords, ∀ (k1_h1 : k1_cond1 i = 1#1), ∀ a, (k1_off1 i) a + S1000x64.size a ≤ S10000x64.size a
  k1_off1_packedbf16 : ∀ i : grid1.Coords, ∀ (k1_h1 : k1_cond1 i = 1#1), (Rect.unit (s := S10000x64) (k1_off1 i) S1000x64.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S10000x64.size a
  hwx1_5 : ∀ i : grid1.Coords, EltTy.bits .f32 = 32 ∨ (Rect.block (s := S10000x64) S1000x64.size (cc1_transform_5 i) (hinb1_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S200x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.K.Shared.lean ====
/-
  What the two kernel regions' proofs share: the branch conditions of the two bodies in closed form over their
  grids, where the second kernel's output window is idle, and the two scratch buffers as whole memrefs.

  The first kernel (grid of 50 row blocks of the adjacency) fills its scratch with x·W1 at the first point only
  and reads it at every point. The second kernel (grid 2 × 10) fills its scratch slab by slab during the first
  sweep (points 0..9) and reads it whole during the second (points 10..19), which alone stores the output.
-/
import proofs.«168657_g4973572128804_cont_8to1_c_232_10_alg».proof.Proof.Gen.Kernel.Launch
import proofs.«168657_g4973572128804_cont_8to1_c_232_10_alg».proof.Proof.Gen.Kernel.Skeleton
import proofs.«168657_g4973572128804_cont_8to1_c_232_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's branch: taken at the first grid point only -/

/-- The condition of the first kernel's one conditional, from the grid coordinate. -/
abbrev cond0 (i : grid0.Coords) : Prop :=
  (Scalar.cmpi .ne (Scalar.extui (Scalar.cmpi .eq (BitVec.ofNat 32 (i 0).val) 0#32)) 0#32) = 1#1

/-- It holds at point 0 and nowhere else. -/
theorem hcond0 : ∀ t : Fin cfg0.N, cond0 (grid0.coords t) ↔ t.val = 0 :=
  (by decide +kernel : ∀ t : Fin grid0.N, cond0 (grid0.coords t) ↔ t.val = 0)

/-! ## The second kernel's branches: the first sweep is points 0..9, the second points 10..19 -/

abbrev condA (i : grid1.Coords) : Prop := k1_cond1 i = 1#1
abbrev condB (i : grid1.Coords) : Prop := k1_cond2 i = 1#1

theorem hcondA : ∀ t : Fin cfg1.N, condA (grid1.coords t) ↔ t.val < 10 :=
  (by decide +kernel : ∀ t : Fin grid1.N, condA (grid1.coords t) ↔ t.val < 10)
theorem hcondB : ∀ t : Fin cfg1.N, condB (grid1.coords t) ↔ 10 ≤ t.val :=
  (by decide +kernel : ∀ t : Fin grid1.N, condB (grid1.coords t) ↔ 10 ≤ t.val)

/-- During the first sweep the output window is idle and is not written back. -/
theorem idle1_5 : ∀ t : Fin cfg1.N, t.val < 10 → cfg1.idle 5 (grid1.coords t) = true := by decide +kernel
theorem noFlush1_5 : ∀ t : Fin cfg1.N, t.val < 10 → (cfg1.win 5).flush t = false := by decide +kernel
/-- During the second sweep it is live and written back at every point. -/
theorem live1_5 : ∀ t : Fin cfg1.N, 10 ≤ t.val → cfg1.idle 5 (grid1.coords t) = false := by decide +kernel
theorem flush1_5 : ∀ t : Fin cfg1.N, 10 ≤ t.val → (cfg1.win 5).flush t = true := by decide +kernel

/-! ## The scratch buffers -/

abbrev scM0 : Memref sig .tc .vmem S10000x128 .bf16 := Memref.whole cc0_scratch0
abbrev scM1 : Memref sig .tc .vmem S10000x64 .bf16 := Memref.whole cc1_scratch0

/-- The first grid point of each kernel. -/
abbrev t0₀ : Fin cfg0.N := ⟨0, by rw [show cfg0.N = 50 from N_0]; omega⟩
abbrev t0₁ : Fin cfg1.N := ⟨0, by rw [show cfg1.N = 20 from N_1]; omega⟩

end Cert.Kernel.Hand

end
-- ==== Proof.K.Body0.lean ====
/-
  The first kernel's body, run once in each of its two cases, on any whole staging memrefs.

  The body has one conditional, taken at the first grid point only. Taken, it stores s1 = x · W1 (the bf16 product of
  arguments 2 and 3) into the scratch, whatever the scratch held. Then, at every point, it stores the bf16 copy of
  the adjacency block into argument 7 (output window 6) and relu(block · scratch + b1) · W2 into argument 6 (output
  window 5), reading the scratch whole. So
  at the first point the scratch read is the product just stored, and at a later point it is whatever the scratch
  held on entry, handed back unchanged. Every store is of a whole buffer and every load is whole, so each buffer ends
  at exactly the stored value, stated here over the skeleton's named values.
-/
import proofs.«168657_g4973572128804_cont_8to1_c_232_10_alg».proof.Proof.K.Shared
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however they are spelt. -/
theorem hz0 : (![0, 0] : Fin 2 → Nat) = fun _ => 0 := funext fun a => by fin_cases a <;> rfl

/-- One store through the whole-buffer rectangle covers the buffer. -/
theorem cover_whole {S : Shape} {e : EltTy} {off : Fin S.rank → Nat} (h : off = fun _ => 0)
    (inb : ∀ a, off a + S.size a ≤ S.size a) (p : S.Idx → Elt F e) (y : S.Idx) :
    ∃ pc ∈ ([(⟨Rect.unit off S.size inb, p⟩ : View.Piece (Elt F) S e)] : List (View.Piece (Elt F) S e)), y ∈ pc.1.set :=
  ⟨_, List.mem_singleton_self _, View.mem_set_unit_zero h inb y⟩

set_option maxHeartbeats 1000000 in
/-- The body at a LATER point (the branch not taken), on any whole staging memrefs: the adjacency block `xa`, the
    bias `xb` and the second weight `xw2` are read and handed back; the scratch is read at its known contents `xs`
    and handed back unchanged; the two outputs end at the bf16 copy of the block and at
    relu(block · xs + bias) · W2. The first layer's operands (arguments 2 and 3) are not touched. -/
theorem body0_later (c : Dev nD) (E : Set ℕ) (i : grid0.Coords) (hi : ¬cond0 i)
    (arg1 : Memref sig .tc .vmem S200x10000 .f32) (harg1 : arg1.IsWhole) (arg2 : Memref sig .tc .vmem S10000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S200x64 .bf16) (harg6 : arg6.IsWhole) (arg7 : Memref sig .tc .vmem S200x10000 .bf16) (harg7 : arg7.IsWhole) (arg8 : Memref sig .tc .vmem S10000x128 .bf16) (harg8 : arg8.IsWhole)
    (xa : Vec F S200x10000 .f32) (xb : Vec F S1x128 .f32) (xw2 : Vec F S128x64 .bf16) (xs : Vec F S10000x128 .bf16)
    (K : PUnit → sProp 𝕄) :
    iprop(owns (c : Thread nD τ) arg1 fullShare xa ∗ owns (c : Thread nD τ) arg4 fullShare xb ∗ owns (c : Thread nD τ) arg5 fullShare xw2
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare xa ∗ owns (c : Thread nD τ) arg4 fullShare xb ∗ owns (c : Thread nD τ) arg5 fullShare xw2
            ∗ owns (c : Thread nD τ) arg6 fullShare (k0_pay3 xa xs xb xw2) ∗ owns (c : Thread nD τ) arg7 fullShare (k0_pay2 xa)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f4, %hf4, H4⟩, ⟨%f5, %hf5, H5⟩, ⟨%d6, %f6, -, H6⟩, ⟨%d7, %f7, -, H7⟩, ⟨%f8, %hf8, H8⟩, Hk⟩
  subst hf1; subst hf4; subst hf5; subst hf8
  sl_exec (disch := first | exact hi)
  sl_step
  iapply Hk
  isplitl [H1]
  · iexists f1; isplitr; · ipureintro; rfl
    iexact H1
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_whole (S := S200x64) hz0 _ _), View.canon_unit_zero hz0]
    simp only [View.readAt_eq_ld]
    rw [View.ld_unit_zero (S := S200x10000) hz0, View.ld_unit_zero (S := S10000x128) hz0,
      View.ld_unit_zero (S := S1x128) hz0, View.ld_unit_zero (S := S128x64) hz0]
  isplitl [H7]
  · iexists _; isplitr
    swap; · iexact H7
    ipureintro
    rw [View.read_writes_eq_canon _ _ _ (cover_whole (S := S200x10000) hz0 _ _), View.canon_unit_zero hz0]
    simp only [View.readAt_eq_ld]
    rw [View.ld_unit_zero (S := S200x10000) hz0]
  iexists f8; isplitr; · ipureintro; rfl
  iexact H8

set_option maxHeartbeats 1000000 in
/-- The body at the FIRST point (the branch taken), on any whole staging memrefs: it first stores x · W1 (of
    arguments 2 and 3, `xx` and `xw1`) into the scratch, whatever the scratch held, and then proceeds as at every
    point, reading the scratch it has just filled. -/
theorem body0_first (c : Dev nD) (E : Set ℕ) (i : grid0.Coords) (hi : cond0 i)
    (arg1 : Memref sig .tc .vmem S200x10000 .f32) (harg1 : arg1.IsWhole) (arg2 : Memref sig .tc .vmem S10000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S200x64 .bf16) (harg6 : arg6.IsWhole) (arg7 : Memref sig .tc .vmem S200x10000 .bf16) (harg7 : arg7.IsWhole) (arg8 : Memref sig .tc .vmem S10000x128 .bf16) (harg8 : arg8.IsWhole)
    (xa : Vec F S200x10000 .f32) (xx : Vec F S10000x128 .f32) (xw1 : Vec F S128x128 .bf16) (xb : Vec F S1x128 .f32) (xw2 : Vec F S128x64 .bf16)
    (K : PUnit → sProp 𝕄) :
    iprop(owns (c : Thread nD τ) arg1 fullShare xa ∗ owns (c : Thread nD τ) arg2 fullShare xx ∗ owns (c : Thread nD τ) arg3 fullShare xw1
        ∗ owns (c : Thread nD τ) arg4 fullShare xb ∗ owns (c : Thread nD τ) arg5 fullShare xw2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare xa ∗ owns (c : Thread nD τ) arg2 fullShare xx ∗ owns (c : Thread nD τ) arg3 fullShare xw1
            ∗ owns (c : Thread nD τ) arg4 fullShare xb ∗ owns (c : Thread nD τ) arg5 fullShare xw2
            ∗ owns (c : Thread nD τ) arg6 fullShare (k0_pay3 xa (k0_pay1 xx xw1) xb xw2) ∗ owns (c : Thread nD τ) arg7 fullShare (k0_pay2 xa)
            ∗ owns (c : Thread nD τ) arg8 fullShare (k0_pay1 xx xw1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := first | exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_whole (S := S200x64) hz0 _ _), View.canon_unit_zero hz0]
    sl_unfold_run_names
    rw [View.readCov_unit_zero _ hz0]
    simp only [View.readAt_eq_ld]
    rw [View.ld_unit_zero (S := S200x10000) hz0, View.ld_unit_zero (S := S10000x128) hz0,
      View.ld_unit_zero (S := S128x128) hz0, View.ld_unit_zero (S := S1x128) hz0, View.ld_unit_zero (S := S128x64) hz0]
  isplitl [H7]
  · iexists _; isplitr
    swap; · iexact H7
    ipureintro
    rw [View.read_writes_eq_canon _ _ _ (cover_whole (S := S200x10000) hz0 _ _), View.canon_unit_zero hz0]
    simp only [View.readAt_eq_ld]
    rw [View.ld_unit_zero (S := S200x10000) hz0]
  iexists _; isplitr
  swap; · iexact H8
  ipureintro
  sl_unfold_run_names
  rw [View.read_writes_eq_canon _ _ _ (cover_whole (S := S10000x128) hz0 _ _), View.canon_unit_zero hz0]
  simp only [View.readAt_eq_ld]
  rw [View.ld_unit_zero (S := S10000x128) hz0, View.ld_unit_zero (S := S128x128) hz0]

end Cert.Kernel.Hand

end
-- ==== Proof.K.Region0.lean ====
/-
  The first kernel region (grid of 50 blocks of 200 rows of the adjacency): its proof data and its body obligation.

  At every point the body stores the bf16 copy of the adjacency block (window 6) and the block of
  s2 = relu(adj_block · s1 + b1) · W2 (window 5), where s1 = x · W1 is what the scratch holds: computed and stored
  at the first point, read back unchanged at every later one. The region's invariant after the first point is
  therefore "the scratch holds s1", a fixed function of the region's entry contents: before the first point the
  scratch holds anything, and from then on it holds s1, which no later point changes.
-/
import proofs.«168657_g4973572128804_cont_8to1_c_232_10_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch holds from the first point on: x · W1 (windows 1 and 2 are whole arrays at every point). -/
def S1 (c : Dev nD) : Vec F S10000x128 .bf16 := k0_pay1 (iblk0 V c 1 t0₀) (iblk0 V c 2 t0₀)

/-! ## The region's invariant -/

/-- The core's scoped buffers that belong to the second kernel (its staging buffers and its scratch), each at some
    contents: the first kernel never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- The region's invariant before position `n`: before the first point every scoped buffer that is no staging
    buffer of this kernel holds anything; from then on this kernel's scratch holds x · W1 (the others still
    anything), and the generator register is at some state throughout. -/
def Phi0 (c : Dev nD) : ℕ → sProp 𝕄
  | 0 => Pipeline.ΦA spec0 c
  | _ + 1 => iprop(owns (c : Thread nD τ) scM0 fullShare (S1 V c) ∗ rest0 (F := F) c ∗ (∃ r, prngReg c r))

theorem Phi0_zero (c : Dev nD) : Phi0 V c 0 = Pipeline.ΦA spec0 c := rfl

theorem Phi0_succ (c : Dev nD) (n : ℕ) :
    Phi0 V c (n + 1) = iprop(owns (c : Thread nD τ) scM0 fullShare (S1 V c) ∗ rest0 (F := F) c ∗ (∃ r, prngReg c r)) := rfl

theorem Phi0_pos (c : Dev nD) (n : ℕ) (hn : n ≠ 0) :
    Phi0 V c n = iprop(owns (c : Thread nD τ) scM0 fullShare (S1 V c) ∗ rest0 (F := F) c ∗ (∃ r, prngReg c r)) := by
  cases n with
  | zero => exact absurd rfl hn
  | succ n => rfl

/-- The class invariant with this kernel's scratch singled out as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## The proof data -/

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 0 t) (S1 V c) (iblk0 V c 3 t) (iblk0 V c 4 t)
    | ⟨6, _⟩ => k0_pay2 (iblk0 V c 0 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay3 (iblk0 V c 0 t) (S1 V c) (iblk0 V c 3 t) (iblk0 V c 4 t) := by dsimp only [dat0]
theorem after0_6 (c : Dev nD) (t : Fin cfg0.N) : (dat0 V c).after 6 t = k0_pay2 (iblk0 V c 0 t) := by dsimp only [dat0]

/-- The invariant at a point's start and at its end, restated at the point's number. -/
theorem Phi0_castSucc (c : Dev nD) (t : Fin cfg0.N) : (dat0 V c).Φ t.castSucc = Phi0 V c t.val := by
  dsimp only [dat0]; first | rfl | simp only [Fin.coe_castSucc]
theorem Phi0_atSucc (c : Dev nD) (t : Fin cfg0.N) : (dat0 V c).Φ t.succ = Phi0 V c (t.val + 1) := by
  dsimp only [dat0]; first | rfl | simp only [Fin.val_succ]

/-! ## The input windows' buffers hold their blocks at every point

An input window's current staging buffer holds the array's block at the point whether or not it was fetched there:
unfetched, the block index has not moved (windows 1 to 4 are whole arrays with a constant index map, fetched at the
first point only), and the body leaves every input's buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the body is called with at point `t`: the invariant, what the core owes, and every window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns (both outputs are live and written back at every point). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point. At the first point (the branch condition holds exactly there) the invariant hands the
    scratch over at anything and takes it back at x · W1 of this point's blocks of windows 1 and 2, which are the
    first point's; at a later point it hands the scratch over at x · W1 and takes it back unchanged, the first
    layer's operands passing by untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, Phi0_castSucc, Phi0_atSucc, Phi0_succ]
  by_cases hz : t.val = 0
  · have hS : S1 V c = k0_pay1 (iblk0 V c 1 t) (iblk0 V c 2 t) := by
      unfold S1; rw [show t0₀ = t from Fin.ext hz.symm]
    rw [hz, Phi0_zero, PhiA0_eq, hS]
    iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (body0_first c Set.univ (grid0.coords t) ((hcond0 t).mpr hz) _ _ _ _ _ _ _ _ _ _ _ _ _ _ scM0 (Memref.isWhole_whole _)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.val hz]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
    iapply (body0_later c Set.univ (grid0.coords t) (fun h => hz ((hcond0 t).mp h)) _ _ _ _ _ _ _ _ _ _ _ _ _ _ scM0 (Memref.isWhole_whole _)
      (iblk0 V c 0 t) (iblk0 V c 3 t) (iblk0 V c 4 t) (S1 V c) _)
    isplitl [H0]; · iexact H0
    isplitl [H3]; · iexact H3
    isplitl [H4]; · iexact H4
    isplitl [H5]; · iexists _; iexact H5
    isplitl [H6]; · iexists _; iexact H6
    isplitl [HS]; · iexact HS
    iintro ⟨H0, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first pipeline, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]
  try exact Idealize.SL.BI.Entails.refl _

/-- After the last point the invariant gives it back: that the scratch holds x · W1 is forgotten. -/
theorem hout0 (c : Dev nD) : (dat0 V c).Φ (Fin.last cfg0.N) ⊢ Pipeline.ΦA spec0 c := by
  rw [show (dat0 V c).Φ (Fin.last cfg0.N) = Phi0 V c cfg0.N from rfl,
    Phi0_pos V c cfg0.N (by rw [show cfg0.N = 50 from N_0]; omega), PhiA0_eq]
  iintro ⟨HS, Hr, Hg⟩
  isplitl [HS Hr]
  · isplitl [HS]; · iexists _; iexact HS
    iexact Hr
  iexact Hg

end Cert.Kernel.Hand

end
-- ==== Proof.K.Body1.lean ====
/-
  The second kernel's body on any whole staging buffers, in its two cases, over the named payloads.

  First sweep (the first conditional taken, the second not): the body reads the adjacency block, s2, b2 and W3,
  and overwrites rows [o, o + 1000) of the scratch, o = 1000 · (second grid coordinate), with the slab
  relu(adj_block · s2 + b2) · W3; every other row of the scratch keeps what it held, and the output buffer
  and b3 are not touched.

  Second sweep (the second conditional taken, the first not): the body reads the adjacency block, the whole
  scratch and b3, and overwrites the whole output buffer with adj_block · scratch + b3; the scratch is unchanged.
-/
import proofs.«168657_g4973572128804_cont_8to1_c_232_10_alg».proof.Proof.K.Shared
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole buffer through its full rectangle -/

/-- The offsets of a whole-buffer access of a rank-2 buffer are zero on both axes. -/
theorem off00 : (![0, 0] : Fin 2 → ℕ) = fun _ => 0 := by decide

/-- A load of the whole of a whole buffer held at the raw contents that read `X` reads `X`. -/
theorem readAt_whole_unread {S : Shape} {e : EltTy} {m : Memref sig .tc .vmem S e} (h : m.IsWhole)
    (X : S.Idx → Elt F e) {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- One store through the full rectangle of a buffer leaves its payload, whatever the buffer held. -/
theorem read_whole_store {S : Shape} {e : EltTy} (v : View sig .tc .vmem S e) (f : v.ty.Contents (Elt F))
    {off : Fin S.rank → ℕ} (hz : off = fun _ => 0) (inb : ∀ a, off a + S.size a ≤ S.size a)
    (P P' : S.Idx → Elt F e) (hP : P' = P) :
    v.read (Elt F) (v.writes (Elt F) f [(⟨Rect.unit off S.size inb, P'⟩ : View.Piece (Elt F) S e)]) = P := by
  subst hP
  rw [View.read_writes_eq_canon v f _ (fun y => ⟨_, List.mem_singleton_self _, View.mem_set_unit_zero hz inb y⟩),
    View.canon_unit_zero hz]

/-! ## A slab of rows overwritten -/

/-- `xs'` is `xs` with rows `[o, o + 1000)` overwritten by the slab `P`: row `o + r`, column `k` holds `P` at
    `(r, k)`, a row outside `[o, o + 1000)` holds what `xs` holds. -/
def SlabOf (o : ℕ) (P : Vec F S1000x64 .bf16) (xs xs' : Vec F S10000x64 .bf16) : Prop :=
  (∀ (y : S10000x64.Idx) (x : S1000x64.Idx), (y 0).val = o + (x 0).val → (y 1).val = (x 1).val → xs' y = P x)
    ∧ (∀ y : S10000x64.Idx, ((y 0).val < o ∨ o + 1000 ≤ (y 0).val) → xs' y = xs y)

/-- One store of 1000 whole rows at row offset `o` into a whole buffer that read `xs` leaves `xs` with those rows
    overwritten. -/
theorem slabOf_store {m : Memref sig .tc .vmem S10000x64 .bf16} (h : m.IsWhole) (xs : Vec F S10000x64 .bf16)
    {off : Fin 2 → ℕ} {o : ℕ} (hoff : off = ![o, 0]) (inb : ∀ a, off a + S1000x64.size a ≤ S10000x64.size a)
    (P P' : Vec F S1000x64 .bf16) (hP : P' = P) :
    SlabOf o P xs (m.view.read (Elt F) (m.view.writes (Elt F) (h.unread xs)
      [(⟨Rect.unit (s := S10000x64) off S1000x64.size inb, P'⟩ : View.Piece (Elt F) S10000x64 .bf16)])) := by
  subst hP
  refine ⟨fun y x h0 h1 => ?_, fun y hy => ?_⟩
  · exact View.read_writes_cons_rows_of_mem m.view (h.unread xs) inb P' [] y x hoff h0 h1
  · rw [View.read_writes_cons_rows_of_not_mem m.view (h.unread xs) inb P' [] y hoff rfl hy, View.writes_nil]
    exact congrFun (h.read_unread xs) y

/-! ## The body's two cases -/

set_option maxHeartbeats 1000000 in
/-- First sweep: from the four inputs and the scratch at `xs`, the body hands back the inputs as they were and the
    scratch with rows `[1000 · i₁, 1000 · i₁ + 1000)` overwritten by the slab `k1_pay1 xa xs2 xb2 xw3`. -/
theorem body1_first (c : Dev nD) (E : Set ℕ) (i : grid1.Coords)
    (arg2 : Memref sig .tc .vmem S1000x10000 .bf16) (harg2 : arg2.IsWhole)
    (arg3 : Memref sig .tc .vmem S10000x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S1000x64 .f32) (harg7 : arg7.IsWhole)
    (arg8 : Memref sig .tc .vmem S10000x64 .bf16) (harg8 : arg8.IsWhole)
    (hA : condA i) (hB : ¬condB i)
    (xa : Vec F S1000x10000 .bf16) (xs2 : Vec F S10000x64 .bf16) (xb2 : Vec F S1x64 .f32) (xw3 : Vec F S64x64 .bf16)
    (xs : Vec F S10000x64 .bf16) (K : PUnit → sProp 𝕄) :
    iprop(owns (c : Thread nD τ) arg2 fullShare xa ∗ owns (c : Thread nD τ) arg3 fullShare xs2
        ∗ owns (c : Thread nD τ) arg4 fullShare xb2 ∗ owns (c : Thread nD τ) arg5 fullShare xw3
        ∗ owns (c : Thread nD τ) arg8 fullShare xs
        ∗ (iprop(owns (c : Thread nD τ) arg2 fullShare xa ∗ owns (c : Thread nD τ) arg3 fullShare xs2
            ∗ owns (c : Thread nD τ) arg4 fullShare xb2 ∗ owns (c : Thread nD τ) arg5 fullShare xw3
            ∗ (∃ xs', ⌜SlabOf (1000 * (i 1).val) (k1_pay1 xa xs2 xb2 xw3) xs xs'⌝
                ∗ owns (c : Thread nD τ) arg8 fullShare xs')) -∗ K ⟨⟩))
      ⊢ wp frame (wpE (defs₀ (F := F)) Variants.none c none) E
          (cc1__pass23_body i arg2 harg2 arg3 harg3 arg4 harg4 arg5 harg5 arg6 harg6 arg7 harg7 arg8 harg8) K := by
  simp only [cc1__pass23_body_eq_skeleton]; unfold cc1__pass23_body_skel
  unfold owns
  iintro ⟨⟨%f2, %hf2, H2⟩, ⟨%f3, %hf3, H3⟩, ⟨%f4, %hf4, H4⟩, ⟨%f5, %hf5, H5⟩, ⟨%f8, %hf8, H8⟩, Hk⟩
  obtain rfl := harg2.eq_unread hf2; obtain rfl := harg3.eq_unread hf3
  obtain rfl := harg4.eq_unread hf4; obtain rfl := harg5.eq_unread hf5
  obtain rfl := harg8.eq_unread hf8
  sl_exec (disch := first | exact hA | exact hB)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap
  · iexists _; isplitr
    swap; · iexact H8
    ipureintro; rfl
  ipureintro
  exact slabOf_store harg8 xs (k1_off1_eq i) _ _ _ (by
    rw [readAt_whole_unread harg2 xa off00, readAt_whole_unread harg3 xs2 off00,
      readAt_whole_unread harg4 xb2 off00, readAt_whole_unread harg5 xw3 off00])

set_option maxHeartbeats 1000000 in
/-- Second sweep: from the adjacency block, b3, the scratch at `xs` and the output buffer at anything, the body hands
    back the three it read as they were and the output buffer at `k1_pay2 xa xs xb3`. -/
theorem body1_second (c : Dev nD) (E : Set ℕ) (i : grid1.Coords)
    (arg2 : Memref sig .tc .vmem S1000x10000 .bf16) (harg2 : arg2.IsWhole)
    (arg3 : Memref sig .tc .vmem S10000x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S1000x64 .f32) (harg7 : arg7.IsWhole)
    (arg8 : Memref sig .tc .vmem S10000x64 .bf16) (harg8 : arg8.IsWhole)
    (hA : ¬condA i) (hB : condB i)
    (xa : Vec F S1000x10000 .bf16) (xb3 : Vec F S1x64 .f32) (xs : Vec F S10000x64 .bf16) (K : PUnit → sProp 𝕄) :
    iprop(owns (c : Thread nD τ) arg2 fullShare xa ∗ owns (c : Thread nD τ) arg6 fullShare xb3
        ∗ (∃ d, owns (c : Thread nD τ) arg7 fullShare d) ∗ owns (c : Thread nD τ) arg8 fullShare xs
        ∗ (iprop(owns (c : Thread nD τ) arg2 fullShare xa ∗ owns (c : Thread nD τ) arg6 fullShare xb3
            ∗ owns (c : Thread nD τ) arg7 fullShare (k1_pay2 xa xs xb3)
            ∗ owns (c : Thread nD τ) arg8 fullShare xs) -∗ K ⟨⟩))
      ⊢ wp frame (wpE (defs₀ (F := F)) Variants.none c none) E
          (cc1__pass23_body i arg2 harg2 arg3 harg3 arg4 harg4 arg5 harg5 arg6 harg6 arg7 harg7 arg8 harg8) K := by
  simp only [cc1__pass23_body_eq_skeleton]; unfold cc1__pass23_body_skel
  unfold owns
  iintro ⟨⟨%f2, %hf2, H2⟩, ⟨%f6, %hf6, H6⟩, ⟨%d7, %f7, -, H7⟩, ⟨%f8, %hf8, H8⟩, Hk⟩
  obtain rfl := harg2.eq_unread hf2; obtain rfl := harg6.eq_unread hf6
  obtain rfl := harg8.eq_unread hf8
  sl_exec (disch := first | exact hA | exact hB)
  sl_step
  iapply Hk
  isplitl [H2]
  · iexists _; isplitr; · ipureintro; exact hf2
    iexact H2
  isplitl [H6]
  · iexists _; isplitr; · ipureintro; exact hf6
    iexact H6
  isplitl [H7]
  · iexists _; isplitr
    swap; · iexact H7
    ipureintro
    exact read_whole_store _ _ off00 _ _ _ (by
      rw [readAt_whole_unread harg2 xa off00, readAt_whole_unread harg8 xs off00,
        readAt_whole_unread harg6 xb3 off00])
  iexists _; isplitr; · ipureintro; exact hf8
  iexact H8

end Cert.Kernel.Hand

end
-- ==== Proof.K.Region1.lean ====
/-
  The second kernel region (grid 2 × 10, blocks of 1000 rows of the bf16 adjacency copy): its proof data, its
  invariant and its body obligation.

  First sweep (points 0..9): point i stores rows [1000 i, 1000 i + 1000) of
  s3 = relu(adj · s2 + b2) · W3 into the scratch and leaves the output window alone. Second sweep (points 10..19):
  point 10 + i reads the whole scratch, by then all of s3, and stores the output block adj_block · s3 + b3.
  The invariant before position n says that the first 1000 · min n 10 rows of the scratch already hold s3: a
  first-sweep point extends the known rows by its own slab (row r belongs to the slab of point r / 1000, which
  is the point itself for the rows it stores), and from position 10 on every row is known, so the scratch IS s3.
-/
import proofs.«168657_g4973572128804_cont_8to1_c_232_10_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first-sweep point whose slab holds row `y 0`: row / 1000. -/
def rowPt1 (y : S10000x64.Idx) : Fin cfg1.N :=
  ⟨(y 0).val / 1000, by
    have h : (y 0).val < 10000 := (y 0).isLt
    have hN : cfg1.N = 20 := N_1
    omega⟩

/-- A row's position inside its slab of 1000 rows. -/
def rowLoc1 (y : S10000x64.Idx) : S1000x64.Idx :=
  fun a => match a with
    | ⟨0, _⟩ => ⟨(y 0).val % 1000, Nat.mod_lt _ (by decide)⟩
    | ⟨1, _⟩ => ⟨(y 1).val, (y 1).isLt⟩

/-- s3, the whole scratch after the first sweep: row by row, what the first-sweep point of that row's slab stores. -/
def S3 (c : Dev nD) : Vec F S10000x64 .bf16 :=
  fun y => k1_pay1 (iblk1 V c 0 (rowPt1 y)) (iblk1 V c 1 (rowPt1 y)) (iblk1 V c 2 (rowPt1 y)) (iblk1 V c 3 (rowPt1 y)) (rowLoc1 y)

/-- The core's scoped buffers that are neither a staging buffer of this kernel nor its scratch, each at some
    contents, and the generator register at some state: what the body never touches. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_scratch0), ((c : Thread nD τ).loc cc0_scratch0) ↦{fullShare} f)
    ∗ (∃ r, prngReg c r))

/-- The region's invariant before position `n`: before the first point whatever the launch hands over; afterwards
    the scratch with its first `1000 · min n 10` rows at s3, and the untouched rest. -/
def Phi1 (c : Dev nD) : ℕ → sProp 𝕄
  | 0 => Pipeline.ΦA spec1 c
  | n + 1 => iprop((∃ xs : Vec F S10000x64 .bf16,
        ⌜∀ y : S10000x64.Idx, (y 0).val < 1000 * min (n + 1) 10 → xs y = S3 V c y⌝
          ∗ owns (c : Thread nD τ) scM1 fullShare xs) ∗ Rest1 c)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (iblk1 V c 0 t) (S3 V c) (iblk1 V c 4 t)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay2 (iblk1 V c 0 t) (S3 V c) (iblk1 V c 4 t) := by dsimp only [dat1]

/-! ## The invariant, opened and closed -/

/-- What the launch hands the region, with the scratch set apart. -/
theorem PhiA1_split (c : Dev nD) :
    (Pipeline.ΦA spec1 c : sProp 𝕄) ⊢ iprop((∃ d, owns (c : Thread nD τ) scM1 fullShare d) ∗ Rest1 c) := by
  unfold Pipeline.ΦA Rest1; rw [scopedRest1_eq]; simp only [scM1, owns_whole]
  iintro ⟨⟨H1, H2, H3, H4, H5, H6, H7, H8, H9, H10, H11, HS⟩, Hg⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hg

/-- And back: the scratch at anything and the untouched rest are what the launch expects again. -/
theorem PhiA1_join (c : Dev nD) :
    iprop((∃ d, owns (c : Thread nD τ) scM1 fullShare d) ∗ Rest1 c) ⊢ (Pipeline.ΦA spec1 c : sProp 𝕄) := by
  unfold Pipeline.ΦA Rest1; rw [scopedRest1_eq]; simp only [scM1, owns_whole]
  iintro ⟨HS, H1, H2, H3, H4, H5, H6, H7, H8, H9, H10, H11, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

/-- Before ANY position the scratch is owned with its first `1000 · min n 10` rows at s3 (none at position 0). -/
theorem Phi1_open (c : Dev nD) (n : ℕ) :
    Phi1 V c n ⊢ iprop((∃ xs : Vec F S10000x64 .bf16,
        ⌜∀ y : S10000x64.Idx, (y 0).val < 1000 * min n 10 → xs y = S3 V c y⌝
          ∗ owns (c : Thread nD τ) scM1 fullShare xs) ∗ Rest1 c) := by
  cases n with
  | zero =>
    refine (PhiA1_split c).trans ?_
    iintro ⟨⟨%d, HS⟩, HR⟩
    isplitl [HS]
    · iexists d; isplitr
      · ipureintro; intro y hy; exact absurd hy (by omega)
      iexact HS
    iexact HR
  | succ n => exact Idealize.SL.BI.Entails.refl _

/-- What the scratch holds may be forgotten. -/
theorem Phi1_forget (c : Dev nD) (n : ℕ) :
    iprop((∃ xs : Vec F S10000x64 .bf16,
        ⌜∀ y : S10000x64.Idx, (y 0).val < 1000 * min n 10 → xs y = S3 V c y⌝
          ∗ owns (c : Thread nD τ) scM1 fullShare xs) ∗ Rest1 c)
      ⊢ iprop((∃ d, owns (c : Thread nD τ) scM1 fullShare d) ∗ Rest1 c) := by
  iintro ⟨⟨%xs, -, HS⟩, HR⟩
  isplitl [HS]
  · iexists xs; iexact HS
  iexact HR

theorem Phi1_succ (c : Dev nD) (n : ℕ) :
    Phi1 V c (n + 1) = iprop((∃ xs : Vec F S10000x64 .bf16,
        ⌜∀ y : S10000x64.Idx, (y 0).val < 1000 * min (n + 1) 10 → xs y = S3 V c y⌝
          ∗ owns (c : Thread nD τ) scM1 fullShare xs) ∗ Rest1 c) := rfl

/-! ## The grid's second coordinate, and the rows a point stores -/

/-- During the first sweep the second grid coordinate is the point's number. -/
theorem coord1_first : ∀ t : Fin cfg1.N, t.val < 10 → ((grid1.coords t) 1).val = t.val :=
  (by decide +kernel : ∀ t : Fin grid1.N, t.val < 10 → ((grid1.coords t) 1).val = t.val)

/-- The rows of the slab point `t` stores (`t < 10`) are those whose slab point is `t`; inside the slab the row
    sits at its remainder. -/
theorem rowPt1_eq (y : S10000x64.Idx) (t : Fin cfg1.N) (h : 1000 * t.val ≤ (y 0).val ∧ (y 0).val < 1000 * t.val + 1000) :
    rowPt1 y = t := Fin.ext (by show (y 0).val / 1000 = t.val; omega)

theorem rowLoc1_row (y : S10000x64.Idx) (n : ℕ) (h : 1000 * n ≤ (y 0).val ∧ (y 0).val < 1000 * n + 1000) :
    (y 0).val = 1000 * n + (rowLoc1 y 0).val := by
  show (y 0).val = 1000 * n + (y 0).val % 1000; omega

theorem rowLoc1_col (y : S10000x64.Idx) : (y 1).val = (rowLoc1 y 1).val := rfl

/-- s3 on the rows of point `t`'s slab is the slab that point stores. -/
theorem S3_at (c : Dev nD) (y : S10000x64.Idx) (t : Fin cfg1.N) (h : rowPt1 y = t) :
    S3 V c y = k1_pay1 (iblk1 V c 0 t) (iblk1 V c 1 t) (iblk1 V c 2 t) (iblk1 V c 3 t) (rowLoc1 y) := by
  subst h; rfl

/-! ## The input windows' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' buffers hold their blocks. A first-sweep point takes the scratch with the
    rows below its slab known, stores its slab — whose rows are exactly those whose slab point it is — and hands
    the scratch back with the known rows extended; the output buffer goes back as found. A second-sweep point finds
    every row known, so the scratch is s3, and stores the output block computed from it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, Phi1_succ,
    show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 20 := lt_of_lt_of_eq t.isLt (show cfg1.N = 20 from N_1)
  by_cases h : t.val < 10
  · have hA : condA (grid1.coords t) := (hcondA t).mpr h
    have hB : ¬condB (grid1.coords t) := fun hb => absurd ((hcondB t).mp hb) (by omega)
    rw [Dat.leavesExact_idle (dat1 V c) 5 t (idle1_5 t h) (noFlush1_5 t h)]
    iintro ⟨HΦ, Ho, ⟨%d0, H0⟩, ⟨%d1, H1⟩, ⟨%d2, H2⟩, ⟨%d3, H3⟩, ⟨%d4, H4⟩, H5⟩
    ihave ⟨⟨%xs, %hxs, HS⟩, HR⟩ := (Phi1_open V c t.val) $$ HΦ
    iapply (body1_first c Set.univ (grid1.coords t) _ _ _ _ _ _ _ _ _ _ _ _ _ _ hA hB
      (iblk1 V c 0 t) (iblk1 V c 1 t) (iblk1 V c 2 t) (iblk1 V c 3 t) xs _)
    isplitl [H0]; · iexact H0
    isplitl [H1]; · iexact H1
    isplitl [H2]; · iexact H2
    isplitl [H3]; · iexact H3
    isplitl [HS]; · iexact HS
    iintro ⟨H0, H1, H2, H3, ⟨%xs', %hslab, HS⟩⟩
    isplitl [HS HR]
    · isplitl [HS]
      · iexists xs'; isplitr
        · ipureintro
          intro y hy
          rw [coord1_first t h] at hslab
          have hmin : min (t.val + 1) 10 = t.val + 1 := by omega
          rw [hmin] at hy
          by_cases hlow : (y 0).val < 1000 * t.val
          · rw [hslab.2 y (Or.inl hlow)]
            exact hxs y (by have : min t.val 10 = t.val := by omega
                            rw [this]; exact hlow)
          · have hin : 1000 * t.val ≤ (y 0).val ∧ (y 0).val < 1000 * t.val + 1000 := by omega
            rw [hslab.1 y (rowLoc1 y) (rowLoc1_row y t.val hin) (rowLoc1_col y)]
            exact (S3_at V c y t (rowPt1_eq y t hin)).symm
        iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · have h10 : 10 ≤ t.val := by omega
    have hA : ¬condA (grid1.coords t) := fun ha => absurd ((hcondA t).mp ha) h
    have hB : condB (grid1.coords t) := (hcondB t).mpr h10
    rw [show (dat1 V c).leavesExact 5 t = owns (c : Thread nD τ) (st1_5 t) fullShare ((dat1 V c).after 5 t) from by
      unfold Dat.leavesExact; rw [live1_5 t h10], after1_5]
    iintro ⟨HΦ, Ho, ⟨%d0, H0⟩, ⟨%d1, H1⟩, ⟨%d2, H2⟩, ⟨%d3, H3⟩, ⟨%d4, H4⟩, ⟨%d5, H5⟩⟩
    ihave ⟨⟨%xs, %hxs, HS⟩, HR⟩ := (Phi1_open V c t.val) $$ HΦ
    have hall : xs = S3 V c := funext fun y => hxs y (by
      have hy : (y 0).val < 10000 := (y 0).isLt
      have : min t.val 10 = 10 := by omega
      rw [this]; omega)
    subst hall
    iapply (body1_second c Set.univ (grid1.coords t) _ _ _ _ _ _ _ _ _ _ _ _ _ _ hA hB
      (iblk1 V c 0 t) (iblk1 V c 4 t) (S3 V c) _)
    isplitl [H0]; · iexact H0
    isplitl [H4]; · iexact H4
    isplitl [H5]; · iexists _; iexact H5
    isplitl [HS]; · iexact HS
    iintro ⟨H0, H4, H5, HS⟩
    isplitl [HS HR]
    · isplitl [HS]
      · iexists (S3 V c); isplitr
        · ipureintro; intro y _; rfl
        iexact HS
      iexact HR
    isplitl [Ho]; · iexact Ho
    isplitl [H0]; · iexact H0
    isplitl [H1]; · iexact H1
    isplitl [H2]; · iexact H2
    isplitl [H3]; · iexact H3
    isplitl [H4]; · iexact H4
    iexact H5

/-- The body obligation of the second pipeline, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl]
  exact Idealize.SL.BI.Entails.refl _

/-- After the last point the invariant gives it back: what the scratch holds is forgotten. -/
theorem hout1 (c : Dev nD) : (dat1 V c).Φ (Fin.last cfg1.N) ⊢ Pipeline.ΦA spec1 c := by
  rw [show (dat1 V c).Φ (Fin.last cfg1.N) = Phi1 V c 20 from by
    show Phi1 V c (Fin.last cfg1.N).val = _; rw [Fin.val_last, show cfg1.N = 20 from N_1]]
  exact ((Phi1_open V c 20).trans (Phi1_forget V c 20)).trans (PhiA1_join c)

end Cert.Kernel.Hand

end
-- ==== Proof.K.Run.lean ====
/-
  The run of the whole program: its one stretch of host operations and its two kernel regions, in order.

  The buffers' contents at each boundary are a fold from the launch memory: after the host stretch, its
  operations applied; after a region, that region's arrays at what its write-backs leave and every other buffer
  as it was. Each region is entered from all unscoped buffers at the boundary's contents, lends its arrays to
  the pipeline, hands the scoped buffers and the generator register to the body's invariant and takes them back.
  Every weakly fair execution terminates, and the final memory holds every unscoped buffer at the last
  boundary's contents: the frame claims and the value claim are both read off that.
-/
import proofs.«168657_g4973572128804_cont_8to1_c_232_10_alg».proof.Proof.K.Region0
import proofs.«168657_g4973572128804_cont_8to1_c_232_10_alg».proof.Proof.K.Region1
import proofs.«168657_g4973572128804_cont_8to1_c_232_10_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c => Gen.V0 m c
/-- After the host stretch: the first region's entry. -/
abbrev B1 : Dev nD → Valuation τ sig (Elt F) := fun c => Gen.V1 m c
/-- The same read at the TensorCore's references. -/
abbrev E1 : (c : Dev nD) → (b : Ref sig .tc) → Buf (Elt F) ((c : Thread nD τ).loc b) := fun c b => B1 m c b

/-- After the first region: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references: the second region's entry. -/
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's
    `owes`, at nothing. -/
abbrev Rr (c : Dev nD) : sProp 𝕄 := iprop((∃ r, prngReg c r) ∗ ∃ W, owes (c : Thread nD τ) (0 : CellTallies nD τ sig Unit) W)

/-- The host stretch as a segment. -/
abbrev hseg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (B0 m) Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tlast (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first region: entered from every unscoped buffer at `B1`, left at `B2`. -/
def reg0 : Pipeline.RegionSeg (pcfgs (F := F)) Gen.adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    have h1 : (iprop((∃ r, prngReg c r) ∗ Pipeline.prefHeld (pcfgs (F := F) 0).pre c (fun _ => fullShare) (Gen.adm (F := F) 0).1
        ∗ Pipeline.scopedRest (Pipeline.pin (pcfgs (F := F)) Gen.adm 0).spec c) : sProp 𝕄) ⊢ Pipeline.ΦA spec0 c := by
      unfold Pipeline.ΦA
      iintro ⟨Hp, -, Hr⟩
      isplitl [Hr]; · iexact Hr
      iexact Hp
    exact h1.trans (hin0 (E1 m) c)
  hout c := by
    rw [Pipeline.ownSems0_none, show (pdats m 0 c).Φ (Fin.last _) = (dat0 (E1 m) c).Φ (Fin.last cfg0.N) from rfl]
    have h2 : (Pipeline.ΦA spec0 c : sProp 𝕄) ⊢ iprop((∃ r, prngReg c r) ∗ BI.emp
        ∗ Pipeline.scopedRest (Pipeline.pin (pcfgs (F := F)) Gen.adm 0).spec c) := by
      unfold Pipeline.ΦA
      iintro ⟨Hr, Hp⟩
      isplitl [Hp]; · iexact Hp
      isplitr; · iempintro
      iexact Hr
    exact (hout0 (E1 m) c).trans h2
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B2`, left at `B3`. -/
def reg1 : Pipeline.RegionSeg (pcfgs (F := F)) Gen.adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lz lvz 1 fun _ _ => rfl
  pre c := iprop(StableHlo.held (c : Thread nD τ) (Pipeline.ucRefs τ sig) (B2 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h1 : (iprop((∃ r, prngReg c r) ∗ Pipeline.prefHeld (pcfgs (F := F) 1).pre c (fun _ => fullShare) (Gen.adm (F := F) 1).1
        ∗ Pipeline.scopedRest (Pipeline.pin (pcfgs (F := F)) Gen.adm 1).spec c) : sProp 𝕄) ⊢ Pipeline.ΦA spec1 c := by
      unfold Pipeline.ΦA
      iintro ⟨Hp, -, Hr⟩
      isplitl [Hr]; · iexact Hr
      iexact Hp
    exact h1.trans (hin1 (E2 m) c)
  hout c := by
    rw [Pipeline.ownSems0_none, show (pdats m 1 c).Φ (Fin.last _) = (dat1 (E2 m) c).Φ (Fin.last cfg1.N) from rfl]
    have h2 : (Pipeline.ΦA spec1 c : sProp 𝕄) ⊢ iprop((∃ r, prngReg c r) ∗ BI.emp
        ∗ Pipeline.scopedRest (Pipeline.pin (pcfgs (F := F)) Gen.adm 1).spec c) := by
      unfold Pipeline.ΦA
      iintro ⟨Hr, Hp⟩
      isplitl [Hp]; · iexact Hp
      isplitr; · iempintro
      iexact Hr
    exact (hout1 (E2 m) c).trans h2
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev allSegs : List (Pipeline.Seg (pcfgs (F := F)) Gen.adm (pdats m) () defs₀ 𝒱₀ Lz lvz) :=
  [ .host (hseg0 m), .region (reg0 m), .region (reg1 m) ]

theorem main_run (c : Dev nD) : main (F := F) c = Pipeline.Seg.run (allSegs m) := (main_chain c).trans (by chain_rfl)

set_option backward.isDefEq.respectTransparency.types false in
/-- Every weakly fair execution of the program from memory `m` with zero counters terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) Gen.adm (pdats m) () cellOf_inj emb₁ defs₀ 𝒱₀ Lz lvz m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tlast m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

end Cert.Kernel.Hand

end
-- ==== Proof.K.Frame.lean ====
/-
  The frame: no host operation and no region writes an argument array (a region reads it through an input window
  or passes it by), so each argument's buffer, read back through the boundaries, holds its launch contents, and
  the run's final memory has every argument as launched.
-/
import proofs.«168657_g4973572128804_cont_8to1_c_232_10_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 1).trans (((dat0 (E1 m) c).arrAt_in 1 rfl _).trans (A_eq0 (E1 m) c 1))
    _ = B0 m c (Proc.devRef .tc main_arg0) := Gen.V1_of m c main_arg0 (by decide)
    _ = m ((c : Thread nD τ).loc main_arg0) := rfl

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 0).trans (((dat0 (E1 m) c).arrAt_in 0 rfl _).trans (A_eq0 (E1 m) c 0))
    _ = B0 m c (Proc.devRef .tc main_arg1) := Gen.V1_of m c main_arg1 (by decide)
    _ = m ((c : Thread nD τ).loc main_arg1) := rfl

theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := Gen.V1_of m c main_arg2 (by decide)
    _ = m ((c : Thread nD τ).loc main_arg2) := rfl

theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := Gen.V1_of m c main_arg3 (by decide)
    _ = m ((c : Thread nD τ).loc main_arg3) := rfl

theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := Gen.V1_of m c main_arg4 (by decide)
    _ = m ((c : Thread nD τ).loc main_arg4) := rfl

theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := Gen.V1_of m c main_arg5 (by decide)
    _ = m ((c : Thread nD τ).loc main_arg5) := rfl

theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := Gen.V1_of m c main_arg6 (by decide)
    _ = m ((c : Thread nD τ).loc main_arg6) := rfl

theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := Gen.V1_of m c main_arg7 (by decide)
    _ = m ((c : Thread nD τ).loc main_arg7) := rfl

/-- The frame claim's post, at any `F`. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c)⟩)
    (run_all m ρ)

end Cert.Kernel.Hand

end
-- ==== Proof.KI.Shared.lean ====
/-
  What the two kernel regions' proofs share: the branch conditions of the two bodies in closed form over their
  grids, where the second kernel's output window is idle, and the two scratch buffers as whole memrefs.

  The first kernel (grid of 50 row blocks of the adjacency) fills its scratch with x·W1 at the first point only
  and reads it at every point. The second kernel (grid 2 × 10) fills its scratch slab by slab during the first
  sweep (points 0..9) and reads it whole during the second (points 10..19), which alone stores the output.
-/
import proofs.«168657_g4973572128804_cont_8to1_c_232_10_alg».proof.Proof.Gen.KernelIdeal.Launch
import proofs.«168657_g4973572128804_cont_8to1_c_232_10_alg».proof.Proof.Gen.KernelIdeal.Skeleton
import proofs.«168657_g4973572128804_cont_8to1_c_232_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's branch: taken at the first grid point only -/

/-- The condition of the first kernel's one conditional, from the grid coordinate. -/
abbrev cond0 (i : grid0.Coords) : Prop :=
  (Scalar.cmpi .ne (Scalar.extui (Scalar.cmpi .eq (BitVec.ofNat 32 (i 0).val) 0#32)) 0#32) = 1#1

/-- It holds at point 0 and nowhere else. -/
theorem hcond0 : ∀ t : Fin cfg0.N, cond0 (grid0.coords t) ↔ t.val = 0 :=
  (by decide +kernel : ∀ t : Fin grid0.N, cond0 (grid0.coords t) ↔ t.val = 0)

/-! ## The second kernel's branches: the first sweep is points 0..9, the second points 10..19 -/

abbrev condA (i : grid1.Coords) : Prop := k1_cond1 i = 1#1
abbrev condB (i : grid1.Coords) : Prop := k1_cond2 i = 1#1

theorem hcondA : ∀ t : Fin cfg1.N, condA (grid1.coords t) ↔ t.val < 10 :=
  (by decide +kernel : ∀ t : Fin grid1.N, condA (grid1.coords t) ↔ t.val < 10)
theorem hcondB : ∀ t : Fin cfg1.N, condB (grid1.coords t) ↔ 10 ≤ t.val :=
  (by decide +kernel : ∀ t : Fin grid1.N, condB (grid1.coords t) ↔ 10 ≤ t.val)

/-- During the first sweep the output window is idle and is not written back. -/
theorem idle1_5 : ∀ t : Fin cfg1.N, t.val < 10 → cfg1.idle 5 (grid1.coords t) = true := by decide +kernel
theorem noFlush1_5 : ∀ t : Fin cfg1.N, t.val < 10 → (cfg1.win 5).flush t = false := by decide +kernel
/-- During the second sweep it is live and written back at every point. -/
theorem live1_5 : ∀ t : Fin cfg1.N, 10 ≤ t.val → cfg1.idle 5 (grid1.coords t) = false := by decide +kernel
theorem flush1_5 : ∀ t : Fin cfg1.N, 10 ≤ t.val → (cfg1.win 5).flush t = true := by decide +kernel

/-! ## The scratch buffers -/

abbrev scM0 : Memref sig .tc .vmem S10000x128 .bf16 := Memref.whole cc0_scratch0
abbrev scM1 : Memref sig .tc .vmem S10000x64 .bf16 := Memref.whole cc1_scratch0

/-- The first grid point of each kernel. -/
abbrev t0₀ : Fin cfg0.N := ⟨0, by rw [show cfg0.N = 50 from N_0]; omega⟩
abbrev t0₁ : Fin cfg1.N := ⟨0, by rw [show cfg1.N = 20 from N_1]; omega⟩

end Cert.KernelIdeal.Hand

end
-- ==== Proof.KI.Body0.lean ====
/-
  The first kernel's body, run once in each of its two cases, on any whole staging memrefs.

  The body has one conditional, taken at the first grid point only. Taken, it stores s1 = x · W1 (the bf16 product of
  arguments 2 and 3) into the scratch, whatever the scratch held. Then, at every point, it stores the bf16 copy of
  the adjacency block into argument 7 (output window 6) and relu(block · scratch + b1) · W2 into argument 6 (output
  window 5), reading the scratch whole. So
  at the first point the scratch read is the product just stored, and at a later point it is whatever the scratch
  held on entry, handed back unchanged. Every store is of a whole buffer and every load is whole, so each buffer ends
  at exactly the stored value, stated here over the skeleton's named values.
-/
import proofs.«168657_g4973572128804_cont_8to1_c_232_10_alg».proof.Proof.KI.Shared
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however they are spelt. -/
theorem hz0 : (![0, 0] : Fin 2 → Nat) = fun _ => 0 := funext fun a => by fin_cases a <;> rfl

/-- One store through the whole-buffer rectangle covers the buffer. -/
theorem cover_whole {S : Shape} {e : EltTy} {off : Fin S.rank → Nat} (h : off = fun _ => 0)
    (inb : ∀ a, off a + S.size a ≤ S.size a) (p : S.Idx → Elt F e) (y : S.Idx) :
    ∃ pc ∈ ([(⟨Rect.unit off S.size inb, p⟩ : View.Piece (Elt F) S e)] : List (View.Piece (Elt F) S e)), y ∈ pc.1.set :=
  ⟨_, List.mem_singleton_self _, View.mem_set_unit_zero h inb y⟩

set_option maxHeartbeats 1000000 in
/-- The body at a LATER point (the branch not taken), on any whole staging memrefs: the adjacency block `xa`, the
    bias `xb` and the second weight `xw2` are read and handed back; the scratch is read at its known contents `xs`
    and handed back unchanged; the two outputs end at the bf16 copy of the block and at
    relu(block · xs + bias) · W2. The first layer's operands (arguments 2 and 3) are not touched. -/
theorem body0_later (c : Dev nD) (E : Set ℕ) (i : grid0.Coords) (hi : ¬cond0 i)
    (arg1 : Memref sig .tc .vmem S200x10000 .f32) (harg1 : arg1.IsWhole) (arg2 : Memref sig .tc .vmem S10000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S200x64 .bf16) (harg6 : arg6.IsWhole) (arg7 : Memref sig .tc .vmem S200x10000 .bf16) (harg7 : arg7.IsWhole) (arg8 : Memref sig .tc .vmem S10000x128 .bf16) (harg8 : arg8.IsWhole)
    (xa : Vec F S200x10000 .f32) (xb : Vec F S1x128 .f32) (xw2 : Vec F S128x64 .bf16) (xs : Vec F S10000x128 .bf16)
    (K : PUnit → sProp 𝕄) :
    iprop(owns (c : Thread nD τ) arg1 fullShare xa ∗ owns (c : Thread nD τ) arg4 fullShare xb ∗ owns (c : Thread nD τ) arg5 fullShare xw2
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare xa ∗ owns (c : Thread nD τ) arg4 fullShare xb ∗ owns (c : Thread nD τ) arg5 fullShare xw2
            ∗ owns (c : Thread nD τ) arg6 fullShare (k0_pay3 xa xs xb xw2) ∗ owns (c : Thread nD τ) arg7 fullShare (k0_pay2 xa)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f4, %hf4, H4⟩, ⟨%f5, %hf5, H5⟩, ⟨%d6, %f6, -, H6⟩, ⟨%d7, %f7, -, H7⟩, ⟨%f8, %hf8, H8⟩, Hk⟩
  subst hf1; subst hf4; subst hf5; subst hf8
  sl_exec (disch := first | exact hi)
  sl_step
  iapply Hk
  isplitl [H1]
  · iexists f1; isplitr; · ipureintro; rfl
    iexact H1
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_whole (S := S200x64) hz0 _ _), View.canon_unit_zero hz0]
    simp only [View.readAt_eq_ld]
    rw [View.ld_unit_zero (S := S200x10000) hz0, View.ld_unit_zero (S := S10000x128) hz0,
      View.ld_unit_zero (S := S1x128) hz0, View.ld_unit_zero (S := S128x64) hz0]
  isplitl [H7]
  · iexists _; isplitr
    swap; · iexact H7
    ipureintro
    rw [View.read_writes_eq_canon _ _ _ (cover_whole (S := S200x10000) hz0 _ _), View.canon_unit_zero hz0]
    simp only [View.readAt_eq_ld]
    rw [View.ld_unit_zero (S := S200x10000) hz0]
  iexists f8; isplitr; · ipureintro; rfl
  iexact H8

set_option maxHeartbeats 1000000 in
/-- The body at the FIRST point (the branch taken), on any whole staging memrefs: it first stores x · W1 (of
    arguments 2 and 3, `xx` and `xw1`) into the scratch, whatever the scratch held, and then proceeds as at every
    point, reading the scratch it has just filled. -/
theorem body0_first (c : Dev nD) (E : Set ℕ) (i : grid0.Coords) (hi : cond0 i)
    (arg1 : Memref sig .tc .vmem S200x10000 .f32) (harg1 : arg1.IsWhole) (arg2 : Memref sig .tc .vmem S10000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S200x64 .bf16) (harg6 : arg6.IsWhole) (arg7 : Memref sig .tc .vmem S200x10000 .bf16) (harg7 : arg7.IsWhole) (arg8 : Memref sig .tc .vmem S10000x128 .bf16) (harg8 : arg8.IsWhole)
    (xa : Vec F S200x10000 .f32) (xx : Vec F S10000x128 .f32) (xw1 : Vec F S128x128 .bf16) (xb : Vec F S1x128 .f32) (xw2 : Vec F S128x64 .bf16)
    (K : PUnit → sProp 𝕄) :
    iprop(owns (c : Thread nD τ) arg1 fullShare xa ∗ owns (c : Thread nD τ) arg2 fullShare xx ∗ owns (c : Thread nD τ) arg3 fullShare xw1
        ∗ owns (c : Thread nD τ) arg4 fullShare xb ∗ owns (c : Thread nD τ) arg5 fullShare xw2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare xa ∗ owns (c : Thread nD τ) arg2 fullShare xx ∗ owns (c : Thread nD τ) arg3 fullShare xw1
            ∗ owns (c : Thread nD τ) arg4 fullShare xb ∗ owns (c : Thread nD τ) arg5 fullShare xw2
            ∗ owns (c : Thread nD τ) arg6 fullShare (k0_pay3 xa (k0_pay1 xx xw1) xb xw2) ∗ owns (c : Thread nD τ) arg7 fullShare (k0_pay2 xa)
            ∗ owns (c : Thread nD τ) arg8 fullShare (k0_pay1 xx xw1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := first | exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_whole (S := S200x64) hz0 _ _), View.canon_unit_zero hz0]
    sl_unfold_run_names
    rw [View.readCov_unit_zero _ hz0]
    simp only [View.readAt_eq_ld]
    rw [View.ld_unit_zero (S := S200x10000) hz0, View.ld_unit_zero (S := S10000x128) hz0,
      View.ld_unit_zero (S := S128x128) hz0, View.ld_unit_zero (S := S1x128) hz0, View.ld_unit_zero (S := S128x64) hz0]
  isplitl [H7]
  · iexists _; isplitr
    swap; · iexact H7
    ipureintro
    rw [View.read_writes_eq_canon _ _ _ (cover_whole (S := S200x10000) hz0 _ _), View.canon_unit_zero hz0]
    simp only [View.readAt_eq_ld]
    rw [View.ld_unit_zero (S := S200x10000) hz0]
  iexists _; isplitr
  swap; · iexact H8
  ipureintro
  sl_unfold_run_names
  rw [View.read_writes_eq_canon _ _ _ (cover_whole (S := S10000x128) hz0 _ _), View.canon_unit_zero hz0]
  simp only [View.readAt_eq_ld]
  rw [View.ld_unit_zero (S := S10000x128) hz0, View.ld_unit_zero (S := S128x128) hz0]

end Cert.KernelIdeal.Hand

end
-- ==== Proof.KI.Region0.lean ====
/-
  The first kernel region (grid of 50 blocks of 200 rows of the adjacency): its proof data and its body obligation.

  At every point the body stores the bf16 copy of the adjacency block (window 6) and the block of
  s2 = relu(adj_block · s1 + b1) · W2 (window 5), where s1 = x · W1 is what the scratch holds: computed and stored
  at the first point, read back unchanged at every later one. The region's invariant after the first point is
  therefore "the scratch holds s1", a fixed function of the region's entry contents: before the first point the
  scratch holds anything, and from then on it holds s1, which no later point changes.
-/
import proofs.«168657_g4973572128804_cont_8to1_c_232_10_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch holds from the first point on: x · W1 (windows 1 and 2 are whole arrays at every point). -/
def S1 (c : Dev nD) : Vec F S10000x128 .bf16 := k0_pay1 (iblk0 V c 1 t0₀) (iblk0 V c 2 t0₀)

/-! ## The region's invariant -/

/-- The core's scoped buffers that belong to the second kernel (its staging buffers and its scratch), each at some
    contents: the first kernel never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- The region's invariant before position `n`: before the first point every scoped buffer that is no staging
    buffer of this kernel holds anything; from then on this kernel's scratch holds x · W1 (the others still
    anything), and the generator register is at some state throughout. -/
def Phi0 (c : Dev nD) : ℕ → sProp 𝕄
  | 0 => Pipeline.ΦA spec0 c
  | _ + 1 => iprop(owns (c : Thread nD τ) scM0 fullShare (S1 V c) ∗ rest0 (F := F) c ∗ (∃ r, prngReg c r))

theorem Phi0_zero (c : Dev nD) : Phi0 V c 0 = Pipeline.ΦA spec0 c := rfl

theorem Phi0_succ (c : Dev nD) (n : ℕ) :
    Phi0 V c (n + 1) = iprop(owns (c : Thread nD τ) scM0 fullShare (S1 V c) ∗ rest0 (F := F) c ∗ (∃ r, prngReg c r)) := rfl

theorem Phi0_pos (c : Dev nD) (n : ℕ) (hn : n ≠ 0) :
    Phi0 V c n = iprop(owns (c : Thread nD τ) scM0 fullShare (S1 V c) ∗ rest0 (F := F) c ∗ (∃ r, prngReg c r)) := by
  cases n with
  | zero => exact absurd rfl hn
  | succ n => rfl

/-- The class invariant with this kernel's scratch singled out as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## The proof data -/

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 0 t) (S1 V c) (iblk0 V c 3 t) (iblk0 V c 4 t)
    | ⟨6, _⟩ => k0_pay2 (iblk0 V c 0 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay3 (iblk0 V c 0 t) (S1 V c) (iblk0 V c 3 t) (iblk0 V c 4 t) := by dsimp only [dat0]
theorem after0_6 (c : Dev nD) (t : Fin cfg0.N) : (dat0 V c).after 6 t = k0_pay2 (iblk0 V c 0 t) := by dsimp only [dat0]

/-- The invariant at a point's start and at its end, restated at the point's number. -/
theorem Phi0_castSucc (c : Dev nD) (t : Fin cfg0.N) : (dat0 V c).Φ t.castSucc = Phi0 V c t.val := by
  dsimp only [dat0]; first | rfl | simp only [Fin.coe_castSucc]
theorem Phi0_atSucc (c : Dev nD) (t : Fin cfg0.N) : (dat0 V c).Φ t.succ = Phi0 V c (t.val + 1) := by
  dsimp only [dat0]; first | rfl | simp only [Fin.val_succ]

/-! ## The input windows' buffers hold their blocks at every point

An input window's current staging buffer holds the array's block at the point whether or not it was fetched there:
unfetched, the block index has not moved (windows 1 to 4 are whole arrays with a constant index map, fetched at the
first point only), and the body leaves every input's buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the body is called with at point `t`: the invariant, what the core owes, and every window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns (both outputs are live and written back at every point). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point. At the first point (the branch condition holds exactly there) the invariant hands the
    scratch over at anything and takes it back at x · W1 of this point's blocks of windows 1 and 2, which are the
    first point's; at a later point it hands the scratch over at x · W1 and takes it back unchanged, the first
    layer's operands passing by untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, Phi0_castSucc, Phi0_atSucc, Phi0_succ]
  by_cases hz : t.val = 0
  · have hS : S1 V c = k0_pay1 (iblk0 V c 1 t) (iblk0 V c 2 t) := by
      unfold S1; rw [show t0₀ = t from Fin.ext hz.symm]
    rw [hz, Phi0_zero, PhiA0_eq, hS]
    iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (body0_first c Set.univ (grid0.coords t) ((hcond0 t).mpr hz) _ _ _ _ _ _ _ _ _ _ _ _ _ _ scM0 (Memref.isWhole_whole _)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.val hz]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
    iapply (body0_later c Set.univ (grid0.coords t) (fun h => hz ((hcond0 t).mp h)) _ _ _ _ _ _ _ _ _ _ _ _ _ _ scM0 (Memref.isWhole_whole _)
      (iblk0 V c 0 t) (iblk0 V c 3 t) (iblk0 V c 4 t) (S1 V c) _)
    isplitl [H0]; · iexact H0
    isplitl [H3]; · iexact H3
    isplitl [H4]; · iexact H4
    isplitl [H5]; · iexists _; iexact H5
    isplitl [H6]; · iexists _; iexact H6
    isplitl [HS]; · iexact HS
    iintro ⟨H0, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first pipeline, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]
  try exact Idealize.SL.BI.Entails.refl _

/-- After the last point the invariant gives it back: that the scratch holds x · W1 is forgotten. -/
theorem hout0 (c : Dev nD) : (dat0 V c).Φ (Fin.last cfg0.N) ⊢ Pipeline.ΦA spec0 c := by
  rw [show (dat0 V c).Φ (Fin.last cfg0.N) = Phi0 V c cfg0.N from rfl,
    Phi0_pos V c cfg0.N (by rw [show cfg0.N = 50 from N_0]; omega), PhiA0_eq]
  iintro ⟨HS, Hr, Hg⟩
  isplitl [HS Hr]
  · isplitl [HS]; · iexists _; iexact HS
    iexact Hr
  iexact Hg

end Cert.KernelIdeal.Hand

end
-- ==== Proof.KI.Body1.lean ====
/-
  The second kernel's body on any whole staging buffers, in its two cases, over the named payloads.

  First sweep (the first conditional taken, the second not): the body reads the adjacency block, s2, b2 and W3,
  and overwrites rows [o, o + 1000) of the scratch, o = 1000 · (second grid coordinate), with the slab
  relu(adj_block · s2 + b2) · W3; every other row of the scratch keeps what it held, and the output buffer
  and b3 are not touched.

  Second sweep (the second conditional taken, the first not): the body reads the adjacency block, the whole
  scratch and b3, and overwrites the whole output buffer with adj_block · scratch + b3; the scratch is unchanged.
-/
import proofs.«168657_g4973572128804_cont_8to1_c_232_10_alg».proof.Proof.KI.Shared
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole buffer through its full rectangle -/

/-- The offsets of a whole-buffer access of a rank-2 buffer are zero on both axes. -/
theorem off00 : (![0, 0] : Fin 2 → ℕ) = fun _ => 0 := by decide

/-- A load of the whole of a whole buffer held at the raw contents that read `X` reads `X`. -/
theorem readAt_whole_unread {S : Shape} {e : EltTy} {m : Memref sig .tc .vmem S e} (h : m.IsWhole)
    (X : S.Idx → Elt F e) {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- One store through the full rectangle of a buffer leaves its payload, whatever the buffer held. -/
theorem read_whole_store {S : Shape} {e : EltTy} (v : View sig .tc .vmem S e) (f : v.ty.Contents (Elt F))
    {off : Fin S.rank → ℕ} (hz : off = fun _ => 0) (inb : ∀ a, off a + S.size a ≤ S.size a)
    (P P' : S.Idx → Elt F e) (hP : P' = P) :
    v.read (Elt F) (v.writes (Elt F) f [(⟨Rect.unit off S.size inb, P'⟩ : View.Piece (Elt F) S e)]) = P := by
  subst hP
  rw [View.read_writes_eq_canon v f _ (fun y => ⟨_, List.mem_singleton_self _, View.mem_set_unit_zero hz inb y⟩),
    View.canon_unit_zero hz]

/-! ## A slab of rows overwritten -/

/-- `xs'` is `xs` with rows `[o, o + 1000)` overwritten by the slab `P`: row `o + r`, column `k` holds `P` at
    `(r, k)`, a row outside `[o, o + 1000)` holds what `xs` holds. -/
def SlabOf (o : ℕ) (P : Vec F S1000x64 .bf16) (xs xs' : Vec F S10000x64 .bf16) : Prop :=
  (∀ (y : S10000x64.Idx) (x : S1000x64.Idx), (y 0).val = o + (x 0).val → (y 1).val = (x 1).val → xs' y = P x)
    ∧ (∀ y : S10000x64.Idx, ((y 0).val < o ∨ o + 1000 ≤ (y 0).val) → xs' y = xs y)

/-- One store of 1000 whole rows at row offset `o` into a whole buffer that read `xs` leaves `xs` with those rows
    overwritten. -/
theorem slabOf_store {m : Memref sig .tc .vmem S10000x64 .bf16} (h : m.IsWhole) (xs : Vec F S10000x64 .bf16)
    {off : Fin 2 → ℕ} {o : ℕ} (hoff : off = ![o, 0]) (inb : ∀ a, off a + S1000x64.size a ≤ S10000x64.size a)
    (P P' : Vec F S1000x64 .bf16) (hP : P' = P) :
    SlabOf o P xs (m.view.read (Elt F) (m.view.writes (Elt F) (h.unread xs)
      [(⟨Rect.unit (s := S10000x64) off S1000x64.size inb, P'⟩ : View.Piece (Elt F) S10000x64 .bf16)])) := by
  subst hP
  refine ⟨fun y x h0 h1 => ?_, fun y hy => ?_⟩
  · exact View.read_writes_cons_rows_of_mem m.view (h.unread xs) inb P' [] y x hoff h0 h1
  · rw [View.read_writes_cons_rows_of_not_mem m.view (h.unread xs) inb P' [] y hoff rfl hy, View.writes_nil]
    exact congrFun (h.read_unread xs) y

/-! ## The body's two cases -/

set_option maxHeartbeats 1000000 in
/-- First sweep: from the four inputs and the scratch at `xs`, the body hands back the inputs as they were and the
    scratch with rows `[1000 · i₁, 1000 · i₁ + 1000)` overwritten by the slab `k1_pay1 xa xs2 xb2 xw3`. -/
theorem body1_first (c : Dev nD) (E : Set ℕ) (i : grid1.Coords)
    (arg2 : Memref sig .tc .vmem S1000x10000 .bf16) (harg2 : arg2.IsWhole)
    (arg3 : Memref sig .tc .vmem S10000x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S1000x64 .f32) (harg7 : arg7.IsWhole)
    (arg8 : Memref sig .tc .vmem S10000x64 .bf16) (harg8 : arg8.IsWhole)
    (hA : condA i) (hB : ¬condB i)
    (xa : Vec F S1000x10000 .bf16) (xs2 : Vec F S10000x64 .bf16) (xb2 : Vec F S1x64 .f32) (xw3 : Vec F S64x64 .bf16)
    (xs : Vec F S10000x64 .bf16) (K : PUnit → sProp 𝕄) :
    iprop(owns (c : Thread nD τ) arg2 fullShare xa ∗ owns (c : Thread nD τ) arg3 fullShare xs2
        ∗ owns (c : Thread nD τ) arg4 fullShare xb2 ∗ owns (c : Thread nD τ) arg5 fullShare xw3
        ∗ owns (c : Thread nD τ) arg8 fullShare xs
        ∗ (iprop(owns (c : Thread nD τ) arg2 fullShare xa ∗ owns (c : Thread nD τ) arg3 fullShare xs2
            ∗ owns (c : Thread nD τ) arg4 fullShare xb2 ∗ owns (c : Thread nD τ) arg5 fullShare xw3
            ∗ (∃ xs', ⌜SlabOf (1000 * (i 1).val) (k1_pay1 xa xs2 xb2 xw3) xs xs'⌝
                ∗ owns (c : Thread nD τ) arg8 fullShare xs')) -∗ K ⟨⟩))
      ⊢ wp frame (wpE (defs₀ (F := F)) Variants.none c none) E
          (cc1__pass23_body i arg2 harg2 arg3 harg3 arg4 harg4 arg5 harg5 arg6 harg6 arg7 harg7 arg8 harg8) K := by
  simp only [cc1__pass23_body_eq_skeleton]; unfold cc1__pass23_body_skel
  unfold owns
  iintro ⟨⟨%f2, %hf2, H2⟩, ⟨%f3, %hf3, H3⟩, ⟨%f4, %hf4, H4⟩, ⟨%f5, %hf5, H5⟩, ⟨%f8, %hf8, H8⟩, Hk⟩
  obtain rfl := harg2.eq_unread hf2; obtain rfl := harg3.eq_unread hf3
  obtain rfl := harg4.eq_unread hf4; obtain rfl := harg5.eq_unread hf5
  obtain rfl := harg8.eq_unread hf8
  sl_exec (disch := first | exact hA | exact hB)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap
  · iexists _; isplitr
    swap; · iexact H8
    ipureintro; rfl
  ipureintro
  exact slabOf_store harg8 xs (k1_off1_eq i) _ _ _ (by
    rw [readAt_whole_unread harg2 xa off00, readAt_whole_unread harg3 xs2 off00,
      readAt_whole_unread harg4 xb2 off00, readAt_whole_unread harg5 xw3 off00])

set_option maxHeartbeats 1000000 in
/-- Second sweep: from the adjacency block, b3, the scratch at `xs` and the output buffer at anything, the body hands
    back the three it read as they were and the output buffer at `k1_pay2 xa xs xb3`. -/
theorem body1_second (c : Dev nD) (E : Set ℕ) (i : grid1.Coords)
    (arg2 : Memref sig .tc .vmem S1000x10000 .bf16) (harg2 : arg2.IsWhole)
    (arg3 : Memref sig .tc .vmem S10000x64 .bf16) (harg3 : arg3.IsWhole)
    (arg4 : Memref sig .tc .vmem S1x64 .f32) (harg4 : arg4.IsWhole)
    (arg5 : Memref sig .tc .vmem S64x64 .bf16) (harg5 : arg5.IsWhole)
    (arg6 : Memref sig .tc .vmem S1x64 .f32) (harg6 : arg6.IsWhole)
    (arg7 : Memref sig .tc .vmem S1000x64 .f32) (harg7 : arg7.IsWhole)
    (arg8 : Memref sig .tc .vmem S10000x64 .bf16) (harg8 : arg8.IsWhole)
    (hA : ¬condA i) (hB : condB i)
    (xa : Vec F S1000x10000 .bf16) (xb3 : Vec F S1x64 .f32) (xs : Vec F S10000x64 .bf16) (K : PUnit → sProp 𝕄) :
    iprop(owns (c : Thread nD τ) arg2 fullShare xa ∗ owns (c : Thread nD τ) arg6 fullShare xb3
        ∗ (∃ d, owns (c : Thread nD τ) arg7 fullShare d) ∗ owns (c : Thread nD τ) arg8 fullShare xs
        ∗ (iprop(owns (c : Thread nD τ) arg2 fullShare xa ∗ owns (c : Thread nD τ) arg6 fullShare xb3
            ∗ owns (c : Thread nD τ) arg7 fullShare (k1_pay2 xa xs xb3)
            ∗ owns (c : Thread nD τ) arg8 fullShare xs) -∗ K ⟨⟩))
      ⊢ wp frame (wpE (defs₀ (F := F)) Variants.none c none) E
          (cc1__pass23_body i arg2 harg2 arg3 harg3 arg4 harg4 arg5 harg5 arg6 harg6 arg7 harg7 arg8 harg8) K := by
  simp only [cc1__pass23_body_eq_skeleton]; unfold cc1__pass23_body_skel
  unfold owns
  iintro ⟨⟨%f2, %hf2, H2⟩, ⟨%f6, %hf6, H6⟩, ⟨%d7, %f7, -, H7⟩, ⟨%f8, %hf8, H8⟩, Hk⟩
  obtain rfl := harg2.eq_unread hf2; obtain rfl := harg6.eq_unread hf6
  obtain rfl := harg8.eq_unread hf8
  sl_exec (disch := first | exact hA | exact hB)
  sl_step
  iapply Hk
  isplitl [H2]
  · iexists _; isplitr; · ipureintro; exact hf2
    iexact H2
  isplitl [H6]
  · iexists _; isplitr; · ipureintro; exact hf6
    iexact H6
  isplitl [H7]
  · iexists _; isplitr
    swap; · iexact H7
    ipureintro
    exact read_whole_store _ _ off00 _ _ _ (by
      rw [readAt_whole_unread harg2 xa off00, readAt_whole_unread harg8 xs off00,
        readAt_whole_unread harg6 xb3 off00])
  iexists _; isplitr; · ipureintro; exact hf8
  iexact H8

end Cert.KernelIdeal.Hand

end
-- ==== Proof.KI.Region1.lean ====
/-
  The second kernel region (grid 2 × 10, blocks of 1000 rows of the bf16 adjacency copy): its proof data, its
  invariant and its body obligation.

  First sweep (points 0..9): point i stores rows [1000 i, 1000 i + 1000) of
  s3 = relu(adj · s2 + b2) · W3 into the scratch and leaves the output window alone. Second sweep (points 10..19):
  point 10 + i reads the whole scratch, by then all of s3, and stores the output block adj_block · s3 + b3.
  The invariant before position n says that the first 1000 · min n 10 rows of the scratch already hold s3: a
  first-sweep point extends the known rows by its own slab (row r belongs to the slab of point r / 1000, which
  is the point itself for the rows it stores), and from position 10 on every row is known, so the scratch IS s3.
-/
import proofs.«168657_g4973572128804_cont_8to1_c_232_10_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first-sweep point whose slab holds row `y 0`: row / 1000. -/
def rowPt1 (y : S10000x64.Idx) : Fin cfg1.N :=
  ⟨(y 0).val / 1000, by
    have h : (y 0).val < 10000 := (y 0).isLt
    have hN : cfg1.N = 20 := N_1
    omega⟩

/-- A row's position inside its slab of 1000 rows. -/
def rowLoc1 (y : S10000x64.Idx) : S1000x64.Idx :=
  fun a => match a with
    | ⟨0, _⟩ => ⟨(y 0).val % 1000, Nat.mod_lt _ (by decide)⟩
    | ⟨1, _⟩ => ⟨(y 1).val, (y 1).isLt⟩

/-- s3, the whole scratch after the first sweep: row by row, what the first-sweep point of that row's slab stores. -/
def S3 (c : Dev nD) : Vec F S10000x64 .bf16 :=
  fun y => k1_pay1 (iblk1 V c 0 (rowPt1 y)) (iblk1 V c 1 (rowPt1 y)) (iblk1 V c 2 (rowPt1 y)) (iblk1 V c 3 (rowPt1 y)) (rowLoc1 y)

/-- The core's scoped buffers that are neither a staging buffer of this kernel nor its scratch, each at some
    contents, and the generator register at some state: what the body never touches. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_scratch0), ((c : Thread nD τ).loc cc0_scratch0) ↦{fullShare} f)
    ∗ (∃ r, prngReg c r))

/-- The region's invariant before position `n`: before the first point whatever the launch hands over; afterwards
    the scratch with its first `1000 · min n 10` rows at s3, and the untouched rest. -/
def Phi1 (c : Dev nD) : ℕ → sProp 𝕄
  | 0 => Pipeline.ΦA spec1 c
  | n + 1 => iprop((∃ xs : Vec F S10000x64 .bf16,
        ⌜∀ y : S10000x64.Idx, (y 0).val < 1000 * min (n + 1) 10 → xs y = S3 V c y⌝
          ∗ owns (c : Thread nD τ) scM1 fullShare xs) ∗ Rest1 c)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (iblk1 V c 0 t) (S3 V c) (iblk1 V c 4 t)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay2 (iblk1 V c 0 t) (S3 V c) (iblk1 V c 4 t) := by dsimp only [dat1]

/-! ## The invariant, opened and closed -/

/-- What the launch hands the region, with the scratch set apart. -/
theorem PhiA1_split (c : Dev nD) :
    (Pipeline.ΦA spec1 c : sProp 𝕄) ⊢ iprop((∃ d, owns (c : Thread nD τ) scM1 fullShare d) ∗ Rest1 c) := by
  unfold Pipeline.ΦA Rest1; rw [scopedRest1_eq]; simp only [scM1, owns_whole]
  iintro ⟨⟨H1, H2, H3, H4, H5, H6, H7, H8, H9, H10, H11, HS⟩, Hg⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hg

/-- And back: the scratch at anything and the untouched rest are what the launch expects again. -/
theorem PhiA1_join (c : Dev nD) :
    iprop((∃ d, owns (c : Thread nD τ) scM1 fullShare d) ∗ Rest1 c) ⊢ (Pipeline.ΦA spec1 c : sProp 𝕄) := by
  unfold Pipeline.ΦA Rest1; rw [scopedRest1_eq]; simp only [scM1, owns_whole]
  iintro ⟨HS, H1, H2, H3, H4, H5, H6, H7, H8, H9, H10, H11, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

/-- Before ANY position the scratch is owned with its first `1000 · min n 10` rows at s3 (none at position 0). -/
theorem Phi1_open (c : Dev nD) (n : ℕ) :
    Phi1 V c n ⊢ iprop((∃ xs : Vec F S10000x64 .bf16,
        ⌜∀ y : S10000x64.Idx, (y 0).val < 1000 * min n 10 → xs y = S3 V c y⌝
          ∗ owns (c : Thread nD τ) scM1 fullShare xs) ∗ Rest1 c) := by
  cases n with
  | zero =>
    refine (PhiA1_split c).trans ?_
    iintro ⟨⟨%d, HS⟩, HR⟩
    isplitl [HS]
    · iexists d; isplitr
      · ipureintro; intro y hy; exact absurd hy (by omega)
      iexact HS
    iexact HR
  | succ n => exact Idealize.SL.BI.Entails.refl _

/-- What the scratch holds may be forgotten. -/
theorem Phi1_forget (c : Dev nD) (n : ℕ) :
    iprop((∃ xs : Vec F S10000x64 .bf16,
        ⌜∀ y : S10000x64.Idx, (y 0).val < 1000 * min n 10 → xs y = S3 V c y⌝
          ∗ owns (c : Thread nD τ) scM1 fullShare xs) ∗ Rest1 c)
      ⊢ iprop((∃ d, owns (c : Thread nD τ) scM1 fullShare d) ∗ Rest1 c) := by
  iintro ⟨⟨%xs, -, HS⟩, HR⟩
  isplitl [HS]
  · iexists xs; iexact HS
  iexact HR

theorem Phi1_succ (c : Dev nD) (n : ℕ) :
    Phi1 V c (n + 1) = iprop((∃ xs : Vec F S10000x64 .bf16,
        ⌜∀ y : S10000x64.Idx, (y 0).val < 1000 * min (n + 1) 10 → xs y = S3 V c y⌝
          ∗ owns (c : Thread nD τ) scM1 fullShare xs) ∗ Rest1 c) := rfl

/-! ## The grid's second coordinate, and the rows a point stores -/

/-- During the first sweep the second grid coordinate is the point's number. -/
theorem coord1_first : ∀ t : Fin cfg1.N, t.val < 10 → ((grid1.coords t) 1).val = t.val :=
  (by decide +kernel : ∀ t : Fin grid1.N, t.val < 10 → ((grid1.coords t) 1).val = t.val)

/-- The rows of the slab point `t` stores (`t < 10`) are those whose slab point is `t`; inside the slab the row
    sits at its remainder. -/
theorem rowPt1_eq (y : S10000x64.Idx) (t : Fin cfg1.N) (h : 1000 * t.val ≤ (y 0).val ∧ (y 0).val < 1000 * t.val + 1000) :
    rowPt1 y = t := Fin.ext (by show (y 0).val / 1000 = t.val; omega)

theorem rowLoc1_row (y : S10000x64.Idx) (n : ℕ) (h : 1000 * n ≤ (y 0).val ∧ (y 0).val < 1000 * n + 1000) :
    (y 0).val = 1000 * n + (rowLoc1 y 0).val := by
  show (y 0).val = 1000 * n + (y 0).val % 1000; omega

theorem rowLoc1_col (y : S10000x64.Idx) : (y 1).val = (rowLoc1 y 1).val := rfl

/-- s3 on the rows of point `t`'s slab is the slab that point stores. -/
theorem S3_at (c : Dev nD) (y : S10000x64.Idx) (t : Fin cfg1.N) (h : rowPt1 y = t) :
    S3 V c y = k1_pay1 (iblk1 V c 0 t) (iblk1 V c 1 t) (iblk1 V c 2 t) (iblk1 V c 3 t) (rowLoc1 y) := by
  subst h; rfl

/-! ## The input windows' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' buffers hold their blocks. A first-sweep point takes the scratch with the
    rows below its slab known, stores its slab — whose rows are exactly those whose slab point it is — and hands
    the scratch back with the known rows extended; the output buffer goes back as found. A second-sweep point finds
    every row known, so the scratch is s3, and stores the output block computed from it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, Phi1_succ,
    show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 20 := lt_of_lt_of_eq t.isLt (show cfg1.N = 20 from N_1)
  by_cases h : t.val < 10
  · have hA : condA (grid1.coords t) := (hcondA t).mpr h
    have hB : ¬condB (grid1.coords t) := fun hb => absurd ((hcondB t).mp hb) (by omega)
    rw [Dat.leavesExact_idle (dat1 V c) 5 t (idle1_5 t h) (noFlush1_5 t h)]
    iintro ⟨HΦ, Ho, ⟨%d0, H0⟩, ⟨%d1, H1⟩, ⟨%d2, H2⟩, ⟨%d3, H3⟩, ⟨%d4, H4⟩, H5⟩
    ihave ⟨⟨%xs, %hxs, HS⟩, HR⟩ := (Phi1_open V c t.val) $$ HΦ
    iapply (body1_first c Set.univ (grid1.coords t) _ _ _ _ _ _ _ _ _ _ _ _ _ _ hA hB
      (iblk1 V c 0 t) (iblk1 V c 1 t) (iblk1 V c 2 t) (iblk1 V c 3 t) xs _)
    isplitl [H0]; · iexact H0
    isplitl [H1]; · iexact H1
    isplitl [H2]; · iexact H2
    isplitl [H3]; · iexact H3
    isplitl [HS]; · iexact HS
    iintro ⟨H0, H1, H2, H3, ⟨%xs', %hslab, HS⟩⟩
    isplitl [HS HR]
    · isplitl [HS]
      · iexists xs'; isplitr
        · ipureintro
          intro y hy
          rw [coord1_first t h] at hslab
          have hmin : min (t.val + 1) 10 = t.val + 1 := by omega
          rw [hmin] at hy
          by_cases hlow : (y 0).val < 1000 * t.val
          · rw [hslab.2 y (Or.inl hlow)]
            exact hxs y (by have : min t.val 10 = t.val := by omega
                            rw [this]; exact hlow)
          · have hin : 1000 * t.val ≤ (y 0).val ∧ (y 0).val < 1000 * t.val + 1000 := by omega
            rw [hslab.1 y (rowLoc1 y) (rowLoc1_row y t.val hin) (rowLoc1_col y)]
            exact (S3_at V c y t (rowPt1_eq y t hin)).symm
        iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · have h10 : 10 ≤ t.val := by omega
    have hA : ¬condA (grid1.coords t) := fun ha => absurd ((hcondA t).mp ha) h
    have hB : condB (grid1.coords t) := (hcondB t).mpr h10
    rw [show (dat1 V c).leavesExact 5 t = owns (c : Thread nD τ) (st1_5 t) fullShare ((dat1 V c).after 5 t) from by
      unfold Dat.leavesExact; rw [live1_5 t h10], after1_5]
    iintro ⟨HΦ, Ho, ⟨%d0, H0⟩, ⟨%d1, H1⟩, ⟨%d2, H2⟩, ⟨%d3, H3⟩, ⟨%d4, H4⟩, ⟨%d5, H5⟩⟩
    ihave ⟨⟨%xs, %hxs, HS⟩, HR⟩ := (Phi1_open V c t.val) $$ HΦ
    have hall : xs = S3 V c := funext fun y => hxs y (by
      have hy : (y 0).val < 10000 := (y 0).isLt
      have : min t.val 10 = 10 := by omega
      rw [this]; omega)
    subst hall
    iapply (body1_second c Set.univ (grid1.coords t) _ _ _ _ _ _ _ _ _ _ _ _ _ _ hA hB
      (iblk1 V c 0 t) (iblk1 V c 4 t) (S3 V c) _)
    isplitl [H0]; · iexact H0
    isplitl [H4]; · iexact H4
    isplitl [H5]; · iexists _; iexact H5
    isplitl [HS]; · iexact HS
    iintro ⟨H0, H4, H5, HS⟩
    isplitl [HS HR]
    · isplitl [HS]
      · iexists (S3 V c); isplitr
        · ipureintro; intro y _; rfl
        iexact HS
      iexact HR
    isplitl [Ho]; · iexact Ho
    isplitl [H0]; · iexact H0
    isplitl [H1]; · iexact H1
    isplitl [H2]; · iexact H2
    isplitl [H3]; · iexact H3
    isplitl [H4]; · iexact H4
    iexact H5

/-- The body obligation of the second pipeline, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl]
  exact Idealize.SL.BI.Entails.refl _

/-- After the last point the invariant gives it back: what the scratch holds is forgotten. -/
theorem hout1 (c : Dev nD) : (dat1 V c).Φ (Fin.last cfg1.N) ⊢ Pipeline.ΦA spec1 c := by
  rw [show (dat1 V c).Φ (Fin.last cfg1.N) = Phi1 V c 20 from by
    show Phi1 V c (Fin.last cfg1.N).val = _; rw [Fin.val_last, show cfg1.N = 20 from N_1]]
  exact ((Phi1_open V c 20).trans (Phi1_forget V c 20)).trans (PhiA1_join c)

end Cert.KernelIdeal.Hand

end
-- ==== Proof.KI.Run.lean ====
/-
  The run of the whole program: its one stretch of host operations and its two kernel regions, in order.

  The buffers' contents at each boundary are a fold from the launch memory: after the host stretch, its
  operations applied; after a region, that region's arrays at what its write-backs leave and every other buffer
  as it was. Each region is entered from all unscoped buffers at the boundary's contents, lends its arrays to
  the pipeline, hands the scoped buffers and the generator register to the body's invariant and takes them back.
  Every weakly fair execution terminates, and the final memory holds every unscoped buffer at the last
  boundary's contents: the frame claims and the value claim are both read off that.
-/
import proofs.«168657_g4973572128804_cont_8to1_c_232_10_alg».proof.Proof.KI.Region0
import proofs.«168657_g4973572128804_cont_8to1_c_232_10_alg».proof.Proof.KI.Region1
import proofs.«168657_g4973572128804_cont_8to1_c_232_10_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c => Gen.V0 m c
/-- After the host stretch: the first region's entry. -/
abbrev B1 : Dev nD → Valuation τ sig (Elt F) := fun c => Gen.V1 m c
/-- The same read at the TensorCore's references. -/
abbrev E1 : (c : Dev nD) → (b : Ref sig .tc) → Buf (Elt F) ((c : Thread nD τ).loc b) := fun c b => B1 m c b

/-- After the first region: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references: the second region's entry. -/
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's
    `owes`, at nothing. -/
abbrev Rr (c : Dev nD) : sProp 𝕄 := iprop((∃ r, prngReg c r) ∗ ∃ W, owes (c : Thread nD τ) (0 : CellTallies nD τ sig Unit) W)

/-- The host stretch as a segment. -/
abbrev hseg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (B0 m) Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tlast (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first region: entered from every unscoped buffer at `B1`, left at `B2`. -/
def reg0 : Pipeline.RegionSeg (pcfgs (F := F)) Gen.adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    have h1 : (iprop((∃ r, prngReg c r) ∗ Pipeline.prefHeld (pcfgs (F := F) 0).pre c (fun _ => fullShare) (Gen.adm (F := F) 0).1
        ∗ Pipeline.scopedRest (Pipeline.pin (pcfgs (F := F)) Gen.adm 0).spec c) : sProp 𝕄) ⊢ Pipeline.ΦA spec0 c := by
      unfold Pipeline.ΦA
      iintro ⟨Hp, -, Hr⟩
      isplitl [Hr]; · iexact Hr
      iexact Hp
    exact h1.trans (hin0 (E1 m) c)
  hout c := by
    rw [Pipeline.ownSems0_none, show (pdats m 0 c).Φ (Fin.last _) = (dat0 (E1 m) c).Φ (Fin.last cfg0.N) from rfl]
    have h2 : (Pipeline.ΦA spec0 c : sProp 𝕄) ⊢ iprop((∃ r, prngReg c r) ∗ BI.emp
        ∗ Pipeline.scopedRest (Pipeline.pin (pcfgs (F := F)) Gen.adm 0).spec c) := by
      unfold Pipeline.ΦA
      iintro ⟨Hr, Hp⟩
      isplitl [Hp]; · iexact Hp
      isplitr; · iempintro
      iexact Hr
    exact (hout0 (E1 m) c).trans h2
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B2`, left at `B3`. -/
def reg1 : Pipeline.RegionSeg (pcfgs (F := F)) Gen.adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lz lvz 1 fun _ _ => rfl
  pre c := iprop(StableHlo.held (c : Thread nD τ) (Pipeline.ucRefs τ sig) (B2 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h1 : (iprop((∃ r, prngReg c r) ∗ Pipeline.prefHeld (pcfgs (F := F) 1).pre c (fun _ => fullShare) (Gen.adm (F := F) 1).1
        ∗ Pipeline.scopedRest (Pipeline.pin (pcfgs (F := F)) Gen.adm 1).spec c) : sProp 𝕄) ⊢ Pipeline.ΦA spec1 c := by
      unfold Pipeline.ΦA
      iintro ⟨Hp, -, Hr⟩
      isplitl [Hr]; · iexact Hr
      iexact Hp
    exact h1.trans (hin1 (E2 m) c)
  hout c := by
    rw [Pipeline.ownSems0_none, show (pdats m 1 c).Φ (Fin.last _) = (dat1 (E2 m) c).Φ (Fin.last cfg1.N) from rfl]
    have h2 : (Pipeline.ΦA spec1 c : sProp 𝕄) ⊢ iprop((∃ r, prngReg c r) ∗ BI.emp
        ∗ Pipeline.scopedRest (Pipeline.pin (pcfgs (F := F)) Gen.adm 1).spec c) := by
      unfold Pipeline.ΦA
      iintro ⟨Hr, Hp⟩
      isplitl [Hp]; · iexact Hp
      isplitr; · iempintro
      iexact Hr
    exact (hout1 (E2 m) c).trans h2
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev allSegs : List (Pipeline.Seg (pcfgs (F := F)) Gen.adm (pdats m) () defs₀ 𝒱₀ Lz lvz) :=
  [ .host (hseg0 m), .region (reg0 m), .region (reg1 m) ]

theorem main_run (c : Dev nD) : main (F := F) c = Pipeline.Seg.run (allSegs m) := (main_chain c).trans (by chain_rfl)

set_option backward.isDefEq.respectTransparency.types false in
/-- Every weakly fair execution of the program from memory `m` with zero counters terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) Gen.adm (pdats m) () cellOf_inj emb₁ defs₀ 𝒱₀ Lz lvz m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tlast m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

end Cert.KernelIdeal.Hand

end
-- ==== Proof.KI.Frame.lean ====
/-
  The frame: no host operation and no region writes an argument array (a region reads it through an input window
  or passes it by), so each argument's buffer, read back through the boundaries, holds its launch contents, and
  the run's final memory has every argument as launched.
-/
import proofs.«168657_g4973572128804_cont_8to1_c_232_10_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 1).trans (((dat0 (E1 m) c).arrAt_in 1 rfl _).trans (A_eq0 (E1 m) c 1))
    _ = B0 m c (Proc.devRef .tc main_arg0) := Gen.V1_of m c main_arg0 (by decide)
    _ = m ((c : Thread nD τ).loc main_arg0) := rfl

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 0).trans (((dat0 (E1 m) c).arrAt_in 0 rfl _).trans (A_eq0 (E1 m) c 0))
    _ = B0 m c (Proc.devRef .tc main_arg1) := Gen.V1_of m c main_arg1 (by decide)
    _ = m ((c : Thread nD τ).loc main_arg1) := rfl

theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := Gen.V1_of m c main_arg2 (by decide)
    _ = m ((c : Thread nD τ).loc main_arg2) := rfl

theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := Gen.V1_of m c main_arg3 (by decide)
    _ = m ((c : Thread nD τ).loc main_arg3) := rfl

theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := Gen.V1_of m c main_arg4 (by decide)
    _ = m ((c : Thread nD τ).loc main_arg4) := rfl

theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := Gen.V1_of m c main_arg5 (by decide)
    _ = m ((c : Thread nD τ).loc main_arg5) := rfl

theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := Gen.V1_of m c main_arg6 (by decide)
    _ = m ((c : Thread nD τ).loc main_arg6) := rfl

theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := Gen.V1_of m c main_arg7 (by decide)
    _ = m ((c : Thread nD τ).loc main_arg7) := rfl

/-- The frame claim's post, at any `F`. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c)⟩)
    (run_all m ρ)

end Cert.KernelIdeal.Hand

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KI.Values0Pay.lean ====
/-
  The three values the first kernel's body stores, read at one entry on the extended reals.

  On the extended reals a change of float format is the identity and a recast of a vector to its own shape changes
  nothing, so what is left of each stored value is its arithmetic: a plain matrix product into the zero matrix is the
  sum over the contracted axis, the bias row is added to every row, and the maximum with the zero constant is the
  maximum with 0.

  * the scratch value:        (x · W1)[r, e]          = ∑ k, x[r, k] · W1[k, e]
  * the copy of the block:    the block itself
  * the block of s2:          s2_block[p, q]          = ∑ k, max (∑ j, a[p, j] · s[j, k] + b[0, k]) 0 · W2[k, q]
-/
import proofs.«168657_g4973572128804_cont_8to1_c_232_10_alg».proof.Proof.Gen.KernelIdeal.Skeleton
import proofs.«168657_g4973572128804_cont_8to1_c_232_10_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The three printed dimension records are the plain row-by-column ones. -/
theorem dims_s1 : dot_S10000x128_S128x128_S10000x128_1_0_0_1_n_n = DotDims.plain 10000 128 128 := rfl
theorem dims_as1 : dot_S200x10000_S10000x128_S200x128_1_0_0_1_n_n = DotDims.plain 200 10000 128 := rfl
theorem dims_hw2 : dot_S200x128_S128x64_S200x64_1_0_0_1_n_n = DotDims.plain 200 128 64 := rfl

/-- The scratch value x · W1 at entry (r, e). -/
theorem pay1_apply (x : Vec Ideal S10000x128 .f32) (w : Vec Ideal S128x128 .bf16) (r : Fin 10000) (e : Fin 128) :
    k0_pay1 (F := Ideal) x w (ix2 r e) = ∑ k : Fin 128, x (ix2 r k) * w (ix2 k e) := by
  unfold k0_pay1
  simp only [shapeCast_self]
  exact matmul_plain_zero_apply (φ₁ := .bf16) (φ₂ := .bf16) _ dims_s1 none (truncf .bf16 x bitsLt_bf16_f32) w r e

/-- The copy of the adjacency block is the block. -/
theorem pay2_eq (a : Vec Ideal S200x10000 .f32) : k0_pay2 (F := Ideal) a = a := rfl

/-- The block of s2 at entry (p, q). -/
theorem pay3_apply (a : Vec Ideal S200x10000 .f32) (s : Vec Ideal S10000x128 .bf16) (b : Vec Ideal S1x128 .f32)
    (w : Vec Ideal S128x64 .bf16) (p : Fin 200) (q : Fin 64) :
    k0_pay3 (F := Ideal) a s b w (ix2 p q)
      = ∑ k : Fin 128, max ((∑ j : Fin 10000, a (ix2 p j) * s (ix2 j k)) + b (ix2 (0 : Fin 1) k)) 0 * w (ix2 k q) := by
  unfold k0_pay3
  simp only [shapeCast_self]
  refine (matmul_plain_zero_apply (φ₁ := .bf16) (φ₂ := .bf16) _ dims_hw2 none _ w p q).trans ?_
  refine Finset.sum_congr rfl fun k _ => ?_
  refine congrArg (· * w (ix2 k q)) ?_
  show max (matmul dot_S200x10000_S10000x128_S200x128_1_0_0_1_n_n none (k0_pay2 (F := Ideal) a) s (constant S200x128 .f32 0x00000000#32) (ix2 p k)
      + broadcastTo S200x128 b broadcasts_S1x128_S200x128 (ix2 p k)) (Ideal.ofBits .f32 0x00000000#32) = _
  rw [Ideal.ofBits_zero_f32, broadcastTo_1b_ab_apply]
  refine congrArg (fun z => max (z + b (ix2 (0 : Fin 1) k)) 0) ?_
  exact matmul_plain_zero_apply (φ₁ := .bf16) (φ₂ := .bf16) _ dims_as1 none (k0_pay2 (F := Ideal) a) s p k

end Cert.KernelIdeal.Hand

end
-- ==== Proof.KI.Values0Blocks.lean ====
/-
  The blocks the first kernel's body loads, read where they sit in their arrays.

  The adjacency window moves with the grid point: at point t its block is rows [200 t, 200 t + 200) of the adjacency
  matrix, all 10000 columns. The other four input windows (the features, the two weight matrices, the bias row) have
  constant index maps: their block is the whole array at every point. An element of a block sits in the array, on each
  axis, at block index × block size + its coordinate in the block.
-/
import proofs.«168657_g4973572128804_cont_8to1_c_232_10_alg».proof.Proof.KI.Region0
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The index maps over the grid: the adjacency window and the two output windows are at row block t, column block 0;
    the four whole-array windows are at block (0, 0). -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row p of the adjacency block at point t is row 200 t + p of the adjacency matrix. -/
theorem blk_adj (c : Dev nD) (t : Fin cfg0.N) (p : Fin 200) (j : Fin 10000) (hr : 200 * t.val + p.val < 10000) :
    (iblk0 V c 0 t : Vec Ideal S200x10000 .f32) (ix2 p j) = (V c main_arg1 : Vec Ideal S10000x10000 .f32) (ix2 ⟨200 * t.val + p.val, hr⟩ j) := by
  obtain ⟨⟨e0, e1⟩, -⟩ := idx_facts0 t
  unfold iblk0
  rw [View.read_apply]
  show V c main_arg1 _ = V c main_arg1 _
  refine congrArg (V c main_arg1) (funext fun a => Fin.ext ?_)
  match a with
  | ⟨0, _⟩ => show win0_0.index t (0 : Fin 2) * 200 + 1 * p.val = 200 * t.val + p.val; rw [e0]; omega
  | ⟨1, _⟩ => show win0_0.index t (1 : Fin 2) * 10000 + 1 * j.val = j.val; rw [e1]; omega

/-- The features window holds the whole array at every point. -/
theorem blk_x (c : Dev nD) (t : Fin cfg0.N) (r : Fin 10000) (k : Fin 128) :
    (iblk0 V c 1 t : Vec Ideal S10000x128 .f32) (ix2 r k) = (V c main_arg0 : Vec Ideal S10000x128 .f32) (ix2 r k) := by
  obtain ⟨-, ⟨e0, e1⟩, -⟩ := idx_facts0 t
  unfold iblk0
  rw [View.read_apply]
  show V c main_arg0 _ = V c main_arg0 _
  refine congrArg (V c main_arg0) (funext fun a => Fin.ext ?_)
  match a with
  | ⟨0, _⟩ => show win0_1.index t (0 : Fin 2) * 10000 + 1 * r.val = r.val; rw [e0]; omega
  | ⟨1, _⟩ => show win0_1.index t (1 : Fin 2) * 128 + 1 * k.val = k.val; rw [e1]; omega

/-- The first weight window holds the whole array at every point. -/
theorem blk_w1 (c : Dev nD) (t : Fin cfg0.N) (k : Fin 128) (e : Fin 128) :
    (iblk0 V c 2 t : Vec Ideal S128x128 .bf16) (ix2 k e) = (V c main_v0 : Vec Ideal S128x128 .bf16) (ix2 k e) := by
  obtain ⟨-, -, ⟨e0, e1⟩, -⟩ := idx_facts0 t
  unfold iblk0
  rw [View.read_apply]
  show V c main_v0 _ = V c main_v0 _
  refine congrArg (V c main_v0) (funext fun a => Fin.ext ?_)
  match a with
  | ⟨0, _⟩ => show win0_2.index t (0 : Fin 2) * 128 + 1 * k.val = k.val; rw [e0]; omega
  | ⟨1, _⟩ => show win0_2.index t (1 : Fin 2) * 128 + 1 * e.val = e.val; rw [e1]; omega

/-- The bias window holds the whole one-row array at every point. -/
theorem blk_b1 (c : Dev nD) (t : Fin cfg0.N) (k : Fin 128) :
    (iblk0 V c 3 t : Vec Ideal S1x128 .f32) (ix2 (0 : Fin 1) k) = (V c main_v3 : Vec Ideal S1x128 .f32) (ix2 (0 : Fin 1) k) := by
  obtain ⟨-, -, -, ⟨e0, e1⟩, -⟩ := idx_facts0 t
  unfold iblk0
  rw [View.read_apply]
  show V c main_v3 _ = V c main_v3 _
  refine congrArg (V c main_v3) (funext fun a => Fin.ext ?_)
  match a with
  | ⟨0, _⟩ => show win0_3.index t (0 : Fin 2) * 1 + 1 * 0 = 0; rw [e0]
  | ⟨1, _⟩ => show win0_3.index t (1 : Fin 2) * 128 + 1 * k.val = k.val; rw [e1]; omega

/-- The second weight window holds the whole array at every point. -/
theorem blk_w2 (c : Dev nD) (t : Fin cfg0.N) (k : Fin 128) (q : Fin 64) :
    (iblk0 V c 4 t : Vec Ideal S128x64 .bf16) (ix2 k q) = (V c main_v1 : Vec Ideal S128x64 .bf16) (ix2 k q) := by
  obtain ⟨-, -, -, -, ⟨e0, e1⟩, -⟩ := idx_facts0 t
  unfold iblk0
  rw [View.read_apply]
  show V c main_v1 _ = V c main_v1 _
  refine congrArg (V c main_v1) (funext fun a => Fin.ext ?_)
  match a with
  | ⟨0, _⟩ => show win0_4.index t (0 : Fin 2) * 128 + 1 * k.val = k.val; rw [e0]; omega
  | ⟨1, _⟩ => show win0_4.index t (1 : Fin 2) * 64 + 1 * q.val = q.val; rw [e1]; omega

end Cert.KernelIdeal.Hand

end
-- ==== Proof.Spec.lean ====
/-
  The function both programs compute, on the extended reals: a three-layer graph convolution with a dense
  adjacency matrix,

      h1  = relu(adj · (x · W1) + b1),   h2 = relu(adj · (h1 · W2) + b2),   out = adj · (h2 · W3) + b3,

  every product a plain sum over the contracted axis, every bias added to each row, relu the maximum with zero.
  Matrices are functions of a row and a column; `toMat`, `toRow` and `toVec` read an array of the programs at
  such coordinates and `ofMat` writes a matrix back as an array.
-/
import Idealize.ShloMosaic.Lib.ValueIdx
import Idealize.ShloMosaic.PureOps.Ideal

noncomputable section

namespace Cert.Spec

open Idealize.ShloMosaic Idealize.ShloMosaic.ValueIdx

/-- An a × b matrix of extended reals. -/
abbrev Mat (a b : ℕ) : Type := Fin a → Fin b → EReal

/-- The plain matrix product. -/
def mm {a k b : ℕ} (L : Mat a k) (R : Mat k b) : Mat a b := fun r e => ∑ j : Fin k, L r j * R j e

/-- A vector added to every row. -/
def addRow {a b : ℕ} (M : Mat a b) (v : Fin b → EReal) : Mat a b := fun r e => M r e + v e

/-- The entrywise maximum with zero. -/
def relu {a b : ℕ} (M : Mat a b) : Mat a b := fun r e => max (M r e) 0

/-- One graph-convolution layer without its activation: adj · (h · W) + b. -/
def conv {n k b : ℕ} (adj : Mat n n) (h : Mat n k) (W : Mat k b) (bias : Fin b → EReal) : Mat n b :=
  addRow (mm adj (mm h W)) bias

/-- The three layers. -/
def gcn (x : Mat 10000 128) (adj : Mat 10000 10000) (W1 : Mat 128 128) (b1 : Fin 128 → EReal)
    (W2 : Mat 128 64) (b2 : Fin 64 → EReal) (W3 : Mat 64 64) (b3 : Fin 64 → EReal) : Mat 10000 64 :=
  conv adj (relu (conv adj (relu (conv adj x W1 b1)) W2 b2)) W3 b3

/-- An array of shape [a, b] read as a matrix. -/
def toMat {a b : ℕ} (f : (⟨2, ![a, b]⟩ : Shape).Idx → EReal) : Mat a b := fun r e => f (ix2 r e)

/-- An array of shape [1, b] read as its one row. -/
def toRow {b : ℕ} (f : (⟨2, ![1, b]⟩ : Shape).Idx → EReal) : Fin b → EReal := fun e => f (ix2 (0 : Fin 1) e)

/-- An array of shape [b] read as a vector. -/
def toVec {b : ℕ} (f : (⟨1, ![b]⟩ : Shape).Idx → EReal) : Fin b → EReal := fun e => f (ix1 e)

/-- A matrix written back as an array of shape [a, b]. -/
def ofMat {a b : ℕ} (M : Mat a b) : (⟨2, ![a, b]⟩ : Shape).Idx → EReal :=
  fun i => M ⟨(i 0).val, (i 0).isLt⟩ ⟨(i 1).val, (i 1).isLt⟩

theorem ofMat_ix2 {a b : ℕ} (M : Mat a b) (r : Fin a) (e : Fin b) : ofMat M (ix2 r e) = M r e := rfl

theorem toMat_ofMat {a b : ℕ} (M : Mat a b) : toMat (ofMat M) = M := rfl

end Cert.Spec

end
-- ==== Proof.KI.Values0Final.lean ====
/-
  After the first kernel region, the first output array holds s2 = relu(adj · (x · W1) + b1) · W2.

  At point t the body stores the block of s2 for rows [200 t, 200 t + 200): row p of the stored block is
  relu(adj[200 t + p, ·] · s1 + b1) · W2 with s1 = x · W1 the scratch value, which is row 200 t + p of the matrix s2.
  Every point writes its block back, and row r of the array lies in the block of point r / 200, so the fifty blocks
  cover the array and it ends holding s2.
-/
import proofs.«168657_g4973572128804_cont_8to1_c_232_10_alg».proof.Proof.KI.Values0Pay
import proofs.«168657_g4973572128804_cont_8to1_c_232_10_alg».proof.Proof.KI.Values0Blocks
import proofs.«168657_g4973572128804_cont_8to1_c_232_10_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec
open Idealize.ShloMosaic.ValueIdx

variable (V : (c : Dev nD) → (b : Ref sig .tc) → Buf (Elt Ideal) ((c : Thread nD τ).loc b))

/-- The scratch value at an entry: (x · W1)[r, e]. -/
theorem S1_apply (c : Dev nD) (r : Fin 10000) (e : Fin 128) :
    (S1 V c : Vec Ideal S10000x128 .bf16) (ix2 r e) = mm (toMat (V c main_arg0)) (toMat (V c main_v0)) r e := by
  unfold S1
  refine (pay1_apply (iblk0 V c 1 t0₀) (iblk0 V c 2 t0₀) r e).trans ?_
  show _ = ∑ k : Fin 128, toMat (V c main_arg0) r k * toMat (V c main_v0) k e
  refine Finset.sum_congr rfl fun k _ => ?_
  rw [blk_x V c t0₀ r k, blk_w1 V c t0₀ k e]
  rfl

/-- s2 as a matrix of the arrays the region finds. -/
abbrev s2M (c : Dev nD) : Mat 10000 64 :=
  mm (relu (addRow (mm (toMat (V c main_arg1)) (mm (toMat (V c main_arg0)) (toMat (V c main_v0)))) (toRow (V c main_v3)))) (toMat (V c main_v1))

/-- The block of s2 stored at point t, at row p: row 200 t + p of s2. -/
theorem block5_apply (c : Dev nD) (t : Fin cfg0.N) (p : Fin 200) (q : Fin 64) (hr : 200 * t.val + p.val < 10000) :
    k0_pay3 (F := Ideal) (iblk0 V c 0 t) (S1 V c) (iblk0 V c 3 t) (iblk0 V c 4 t) (ix2 p q) = s2M V c ⟨200 * t.val + p.val, hr⟩ q := by
  refine (pay3_apply (iblk0 V c 0 t) (S1 V c) (iblk0 V c 3 t) (iblk0 V c 4 t) p q).trans ?_
  show _ = ∑ k : Fin 128, max ((∑ j : Fin 10000, toMat (V c main_arg1) ⟨200 * t.val + p.val, hr⟩ j
      * mm (toMat (V c main_arg0)) (toMat (V c main_v0)) j k) + toRow (V c main_v3) k) 0 * toMat (V c main_v1) k q
  refine Finset.sum_congr rfl fun k _ => ?_
  rw [blk_b1 V c t k, blk_w2 V c t k q]
  refine congrArg (fun z => max (z + toRow (V c main_v3) k) 0 * toMat (V c main_v1) k q) ?_
  refine Finset.sum_congr rfl fun j _ => ?_
  rw [blk_adj V c t p j hr, S1_apply V c j k]
  rfl

/-- An index of the s2 array is in point t's block iff, on each axis, its coordinate is in the block's range. -/
theorem mem_blk5 (t : Fin cfg0.N) (i : S10000x64.Idx) :
    i ∈ ((cfg0.win 5).blk t).view.set
      ↔ ∀ a : Fin 2, win0_5.index t a * S200x64.size a ≤ (i a).val ∧ (i a).val < win0_5.index t a * S200x64.size a + S200x64.size a := by
  show i ∈ ((View.whole main_v6_0).slice (win0_5.rect t)).set ↔ _
  rw [View.set_slice_whole, Rect.mem_set_unit]
  exact Iff.rfl

/-- Every index of the s2 array is in the block of the point its row falls in: row r is covered by point r / 200. -/
theorem cover5 (i : S10000x64.Idx) : ∃ t : Fin cfg0.N, (cfg0.win 5).flush t = true ∧ i ∈ ((cfg0.win 5).blk t).view.set := by
  have h0 : (i 0).val < 10000 := idx2_lt0 i
  have h1 : (i 1).val < 64 := idx2_lt1 i
  have hN : cfg0.N = 50 := N_0
  obtain ⟨t, ht⟩ : ∃ t : Fin cfg0.N, t.val = (i 0).val / 200 := ⟨⟨(i 0).val / 200, by rw [hN]; omega⟩, rfl⟩
  obtain ⟨-, -, -, -, -, ⟨e0, e1⟩, -⟩ := idx_facts0 t
  refine ⟨t, flush0_5 t, ?_⟩
  rw [mem_blk5]
  intro a
  match a with
  | ⟨0, _⟩ =>
    show win0_5.index t (0 : Fin 2) * 200 ≤ (i 0).val ∧ (i 0).val < win0_5.index t (0 : Fin 2) * 200 + 200
    rw [e0, ht]; omega
  | ⟨1, _⟩ =>
    show win0_5.index t (1 : Fin 2) * 64 ≤ (i 1).val ∧ (i 1).val < win0_5.index t (1 : Fin 2) * 64 + 64
    rw [e1]; omega

/-- What point t writes back to the s2 array is block t of the matrix s2. -/
theorem flushed5_eq (c : Dev nD) (t : Fin cfg0.N) :
    (dat0 V c).flushed 5 t = ((cfg0.win 5).blk t).view.read (Elt Ideal) (ofMat (s2M V c)) := by
  show (cfg0.win 5).cut (grid0.coords t) ((dat0 V c).after 5 t) = _
  rw [after0_5]
  funext y
  have hy0 : (y 0).val < 200 := (y 0).isLt
  have hy1 : (y 1).val < 64 := (y 1).isLt
  have hN : cfg0.N = 50 := N_0
  have ht := t.isLt
  have hr : 200 * t.val + (y 0).val < 10000 := by omega
  obtain ⟨-, -, -, -, -, ⟨e0, e1⟩, -⟩ := idx_facts0 t
  have hx : (cfg0.win 5).xinj (grid0.coords t) y = ix2 (⟨(y 0).val, hy0⟩ : Fin 200) (⟨(y 1).val, hy1⟩ : Fin 64) :=
    funext fun a => by match a with | ⟨0, _⟩ => rfl | ⟨1, _⟩ => rfl
  have hemb : ((cfg0.win 5).blk t).view.emb y = ix2 (⟨200 * t.val + (y 0).val, hr⟩ : Fin 10000) (⟨(y 1).val, hy1⟩ : Fin 64) := by
    funext a; apply Fin.ext
    match a with
    | ⟨0, _⟩ => show win0_5.index t (0 : Fin 2) * 200 + 1 * (y 0).val = 200 * t.val + (y 0).val; rw [e0]; omega
    | ⟨1, _⟩ => show win0_5.index t (1 : Fin 2) * 64 + 1 * (y 1).val = (y 1).val; rw [e1]; omega
  rw [View.read_apply, hemb]
  show k0_pay3 (F := Ideal) (iblk0 V c 0 t) (S1 V c) (iblk0 V c 3 t) (iblk0 V c 4 t) ((cfg0.win 5).xinj (grid0.coords t) y) = ofMat (s2M V c) _
  rw [hx, block5_apply V c t ⟨(y 0).val, hy0⟩ ⟨(y 1).val, hy1⟩ hr, ofMat_ix2]

/-- After the region the s2 array holds the matrix s2: every point writes its block of it and the blocks cover the array. -/
theorem arr0_5_whole (c : Dev nD) : (dat0 (F := Ideal) V c).arrAt 5 cfg0.N = ofMat (s2M V c) :=
  (dat0 V c).arrAt_eq_of_cover 5 (ofMat (s2M V c)) (fun t _ => flushed5_eq V c t) cover5

end Cert.KernelIdeal.Hand

end
-- ==== Proof.KI.Values0Copy.lean ====
/-
  The first kernel region's second output array: the copy of the adjacency matrix.

  At every grid point the body stores its adjacency block, recast to the narrower float format, into the copy's
  window; on the extended reals that recast is the identity, so what point t writes back is the adjacency block
  itself. The copy's window and the adjacency window have the same blocking — block t is rows [200 t, 200 t + 200),
  all 10000 columns — so an element of the block sits at the same place in both arrays, and what is written back is
  block t of the adjacency matrix read as an array of the copy's shape. Row r lies in the block of point r / 200, so
  the fifty blocks cover the array, and after the region it holds the adjacency matrix.
-/
import proofs.«168657_g4973572128804_cont_8to1_c_232_10_alg».proof.Proof.KI.Region0
import proofs.«168657_g4973572128804_cont_8to1_c_232_10_alg».proof.Proof.KI.Values0Blocks
import proofs.«168657_g4973572128804_cont_8to1_c_232_10_alg».proof.Proof.KI.Values0Pay
import proofs.«168657_g4973572128804_cont_8to1_c_232_10_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Spec

variable (V : (c : Dev nD) → (b : Ref sig .tc) → Buf (Elt Ideal) ((c : Thread nD τ).loc b))

/-- A matrix read off an array and written back is the array. -/
theorem ofMat_toMat {a b : ℕ} (f : (⟨2, ![a, b]⟩ : Shape).Idx → EReal) : ofMat (toMat f) = f :=
  funext fun i => congrArg f (eq_ix2 i).symm

theorem flushed6_eq (c : Dev nD) (t : Fin cfg0.N) :
    (dat0 (F := Ideal) V c).flushed 6 t
      = ((cfg0.win 6).blk t).view.read (Elt Ideal) (ofMat (toMat (a := 10000) (b := 10000) (V c main_arg1))) := by
  show (cfg0.win 6).cut (grid0.coords t) ((dat0 V c).after 6 t) = _
  rw [after0_6, pay2_eq, ofMat_toMat]
  obtain ⟨⟨e0, e1⟩, -, -, -, -, -, ⟨f0, f1⟩⟩ := idx_facts0 t
  funext y
  show V c main_arg1 (((cfg0.win 0).blk t).view.emb y) = V c main_arg1 (((cfg0.win 6).blk t).view.emb y)
  refine congrArg (V c main_arg1) (funext fun a => Fin.ext ?_)
  match a with
  | ⟨0, _⟩ => show win0_0.index t (0 : Fin 2) * 200 + 1 * (y 0).val = win0_6.index t (0 : Fin 2) * 200 + 1 * (y 0).val; rw [e0, f0]
  | ⟨1, _⟩ => show win0_0.index t (1 : Fin 2) * 10000 + 1 * (y 1).val = win0_6.index t (1 : Fin 2) * 10000 + 1 * (y 1).val; rw [e1, f1]

/-- An index of the copy's array is in point t's block iff each coordinate is in the block's range on its axis. -/
theorem mem_blk6 (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_v6_1).slice (win0_6.rect t)).set ↔ _
  rw [View.set_slice_whole, Rect.mem_set_unit]
  exact Iff.rfl

/-- Every row of the copy's array is in the block of the point that handles its 200 rows. -/
theorem cover6 (i : S10000x10000.Idx) :
    ∃ t : Fin cfg0.N, (cfg0.win 6).flush t = true ∧ i ∈ ((cfg0.win 6).blk t).view.set := by
  have hi0 : (i 0).val < 10000 := (i 0).isLt
  have hi1 : (i 1).val < 10000 := (i 1).isLt
  have hN : cfg0.N = 50 := N_0
  refine ⟨⟨(i 0).val / 200, by rw [hN]; omega⟩, flush0_6 _, ?_⟩
  rw [mem_blk6]
  obtain ⟨-, -, -, -, -, -, ⟨f0, f1⟩⟩ := idx_facts0 ⟨(i 0).val / 200, by rw [hN]; omega⟩
  intro a
  match a with
  | ⟨0, _⟩ =>
    show win0_6.index _ (0 : Fin 2) * 200 ≤ (i 0).val ∧ (i 0).val < win0_6.index _ (0 : Fin 2) * 200 + 200
    rw [f0]; show (i 0).val / 200 * 200 ≤ (i 0).val ∧ (i 0).val < (i 0).val / 200 * 200 + 200; omega
  | ⟨1, _⟩ =>
    show win0_6.index _ (1 : Fin 2) * 10000 ≤ (i 1).val ∧ (i 1).val < win0_6.index _ (1 : Fin 2) * 10000 + 10000
    rw [f1]; omega

/-- After the region, the second output array holds the adjacency matrix: on the extended reals the change of float
    format is the identity, and the copy's blocks are the adjacency matrix's own blocks, which tile it. -/
theorem arr0_6_copy (c : Dev nD) : (dat0 (F := Ideal) V c).arrAt 6 cfg0.N = ofMat (toMat (V c main_arg1)) :=
  (dat0 (F := Ideal) V c).arrAt_eq_of_cover 6 _ (fun t _ => flushed6_eq V c t) cover6

end Cert.KernelIdeal.Hand

end
-- ==== Proof.KI.Values0.lean ====
/-
  What the first kernel region leaves in its two output arrays, as whole-array functions of the contents the
  region finds: the array of s2 = relu(adj · (x · W1) + b1) · W2, and the copy of the adjacency matrix.
-/
import proofs.«168657_g4973572128804_cont_8to1_c_232_10_alg».proof.Proof.KI.Values0Final
import proofs.«168657_g4973572128804_cont_8to1_c_232_10_alg».proof.Proof.KI.Values0Copy
import proofs.«168657_g4973572128804_cont_8to1_c_232_10_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- s2 = relu(adj · (x · W1) + b1) · W2 of the arrays the region finds. -/
def s2Mat (c : Dev nD) : Mat 10000 64 :=
  mm (relu (addRow (mm (toMat (V c main_arg1)) (mm (toMat (V c main_arg0)) (toMat (V c main_v0)))) (toRow (V c main_v3)))) (toMat (V c main_v1))

/-- After the region, the first output array holds s2. -/
theorem arr0_5 (c : Dev nD) : (dat0 (F := Ideal) V c).arrAt 5 cfg0.N = ofMat (s2Mat V c) :=
  arr0_5_whole V c

/-- After the region, the second output array holds the adjacency matrix: on the extended reals the change of float
    format is the identity. -/
theorem arr0_6 (c : Dev nD) : (dat0 (F := Ideal) V c).arrAt 6 cfg0.N = ofMat (toMat (V c main_arg1)) :=
  arr0_6_copy V c

end Cert.KernelIdeal.Hand

end
-- ==== Proof.KI.Values1Pay.lean ====
/-
  The second kernel's two stored values read at one entry, on the extended reals.

  A slab of s3: entry (p, q) of relu(A · B + b2) · W3 is  ∑ j, max (∑ k, A[p,k] · B[k,j] + b2[j]) 0 · W3[j,q],
  where A is a block of 1000 rows of the adjacency, B is s2, b2 is a [1, 64] row spread over the rows.
  A block of the output: entry (p, q) of A · S + b3 is  ∑ k, A[p,k] · S[k,q] + b3[q].
  A change of float format and a recast of a vector to its own shape are the identity here; each product is a plain
  row-by-column product accumulated into the zero matrix.
-/
import proofs.«168657_g4973572128804_cont_8to1_c_232_10_alg».proof.Proof.Gen.KernelIdeal.Skeleton
import proofs.«168657_g4973572128804_cont_8to1_c_232_10_alg».proof.Proof.LibPlainMatmul
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

/-- The [1000, 10000] × [10000, 64] product's dimension record is the plain one. -/
theorem dotA1_plain : dot_S1000x10000_S10000x64_S1000x64_1_0_0_1_n_n = DotDims.plain 1000 10000 64 := rfl

/-- The [1000, 64] × [64, 64] product's dimension record is the plain one. -/
theorem dotB1_plain : dot_S1000x64_S64x64_S1000x64_1_0_0_1_n_n = DotDims.plain 1000 64 64 := rfl

/-- Entry (p, j) of a block of 1000 rows times a [10000, 64] matrix, accumulated into zero. -/
theorem matmulA1_apply {φ₁ φ₂ : FTy} (A : FVec Ideal S1000x10000 φ₁) (B : FVec Ideal S10000x64 φ₂) (p : Fin 1000) (j : Fin 64) :
    matmul dot_S1000x10000_S10000x64_S1000x64_1_0_0_1_n_n none A B (constant (F := Ideal) S1000x64 .f32 0x00000000#32) (ix2 p j)
      = ∑ k : Fin 10000, A (ix2 p k) * B (ix2 k j) :=
  matmul_plain_zero_apply dot_S1000x10000_S10000x64_S1000x64_1_0_0_1_n_n dotA1_plain none A B p j

/-- Entry (p, q) of a [1000, 64] block times a [64, 64] matrix, accumulated into zero. -/
theorem matmulB1_apply {φ₁ φ₂ : FTy} (A : FVec Ideal S1000x64 φ₁) (B : FVec Ideal S64x64 φ₂) (p : Fin 1000) (q : Fin 64) :
    matmul dot_S1000x64_S64x64_S1000x64_1_0_0_1_n_n none A B (constant (F := Ideal) S1000x64 .f32 0x00000000#32) (ix2 p q)
      = ∑ j : Fin 64, A (ix2 p j) * B (ix2 j q) :=
  matmul_plain_zero_apply dot_S1000x64_S64x64_S1000x64_1_0_0_1_n_n dotB1_plain none A B p q

/-- One layer before its weight: entry (p, j) of relu(A · B + b) is max (∑ k, A[p,k] · B[k,j] + b[j]) 0. -/
theorem relu_layer1_apply (A : FVec Ideal S1000x10000 .bf16) (B : FVec Ideal S10000x64 .bf16) (b : FVec Ideal S1x64 .f32)
    (p : Fin 1000) (j : Fin 64) :
    maximumf (addf (matmul dot_S1000x10000_S10000x64_S1000x64_1_0_0_1_n_n none A B (constant (F := Ideal) S1000x64 .f32 0x00000000#32))
        (broadcastTo S1000x64 b broadcasts_S1x64_S1000x64))
      (broadcast S1000x64 (Scalar.ofBits (F := Ideal) .f32 0x00000000#32)) (ix2 p j)
      = max ((∑ k : Fin 10000, A (ix2 p k) * B (ix2 k j)) + b (ix2 (0 : Fin 1) j)) 0 := by
  show max (matmul dot_S1000x10000_S10000x64_S1000x64_1_0_0_1_n_n none A B (constant (F := Ideal) S1000x64 .f32 0x00000000#32) (ix2 p j)
      + broadcastTo S1000x64 b broadcasts_S1x64_S1000x64 (ix2 p j)) (Ideal.ofBits .f32 0x00000000#32) = _
  rw [Ideal.ofBits_zero_f32, broadcastTo_1b_ab_apply, matmulA1_apply]

/-- A slab of s3 at (p, q). -/
theorem k1_pay1_apply (v6 : FVec Ideal S1000x10000 .bf16) (v8 : FVec Ideal S10000x64 .bf16) (v11 : FVec Ideal S1x64 .f32)
    (v18 : FVec Ideal S64x64 .bf16) (p : Fin 1000) (q : Fin 64) :
    k1_pay1 (F := Ideal) v6 v8 v11 v18 (ix2 p q)
      = ∑ j : Fin 64, max ((∑ k : Fin 10000, v6 (ix2 p k) * v8 (ix2 k j)) + v11 (ix2 (0 : Fin 1) j)) 0 * v18 (ix2 j q) := by
  unfold k1_pay1
  simp only [shapeCast_self]
  refine (matmulB1_apply (φ₁ := .bf16) (φ₂ := .bf16) _ v18 p q).trans ?_
  refine Finset.sum_congr rfl fun j _ => ?_
  exact congrArg (fun z => z * v18 (ix2 j q)) (relu_layer1_apply v6 v8 v11 p j)

/-- A block of the output at (p, q). -/
theorem k1_pay2_apply (v6 : FVec Ideal S1000x10000 .bf16) (v8 : FVec Ideal S10000x64 .bf16) (v10 : FVec Ideal S1x64 .f32)
    (p : Fin 1000) (q : Fin 64) :
    k1_pay2 (F := Ideal) v6 v8 v10 (ix2 p q) = (∑ k : Fin 10000, v6 (ix2 p k) * v8 (ix2 k q)) + v10 (ix2 (0 : Fin 1) q) := by
  unfold k1_pay2
  simp only [shapeCast_self]
  show matmul dot_S1000x10000_S10000x64_S1000x64_1_0_0_1_n_n none v6 v8 (constant (F := Ideal) S1000x64 .f32 0x00000000#32) (ix2 p q)
      + broadcastTo S1000x64 v10 broadcasts_S1x64_S1000x64 (ix2 p q) = _
  rw [broadcastTo_1b_ab_apply, matmulA1_apply]

end Cert.KernelIdeal.Hand

end
-- ==== Proof.KI.Values1Blocks.lean ====
/-
  Where the second kernel's blocks sit in their arrays.

  Grid point t = 10 · sweep + i. The adjacency block at t is rows [1000 (t mod 10), 1000 (t mod 10) + 1000) of the
  bf16 adjacency, in both sweeps; s2, the two bias rows and W3 are read whole at every point; the output block at a
  point t of the second sweep is rows [1000 (t − 10), 1000 (t − 10) + 1000) of the output. Every row of the output
  lies in the block of point 10 + row / 1000.
-/
import proofs.«168657_g4973572128804_cont_8to1_c_232_10_alg».proof.Proof.KI.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The index maps over the grid -/

/-- The adjacency block index at point t is (t mod 10, 0). -/
theorem idx1_0 : ∀ t : Fin cfg1.N, win1_0.index t (0 : Fin 2) = t.val % 10 ∧ win1_0.index t (1 : Fin 2) = 0 :=
  (by decide +kernel : ∀ t : Fin grid1.N, win1_0.index t (0 : Fin 2) = t.val % 10 ∧ win1_0.index t (1 : Fin 2) = 0)

/-- The windows read whole have block index (0, 0) at every point. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- The output block index at a point t of the second sweep is (t − 10, 0). -/
theorem idx1_5 : ∀ t : Fin cfg1.N, 10 ≤ t.val → win1_5.index t (0 : Fin 2) = t.val - 10 ∧ win1_5.index t (1 : Fin 2) = 0 :=
  (by decide +kernel : ∀ t : Fin grid1.N, 10 ≤ t.val → win1_5.index t (0 : Fin 2) = t.val - 10 ∧ win1_5.index t (1 : Fin 2) = 0)

/-! ## The input blocks read off their arrays -/

/-- The adjacency block at point t is rows 1000 (t mod 10) … of the adjacency. -/
theorem iblk1_0_apply (c : Dev nD) (t : Fin cfg1.N) (x : S1000x10000.Idx) (k : S10000x10000.Idx)
    (hk0 : (k 0).val = 1000 * (t.val % 10) + (x 0).val) (hk1 : (k 1).val = (x 1).val) :
    (iblk1 V c 0 t : Vec F S1000x10000 .bf16) x = (V c main_v6_1 : S10000x10000.Idx → Elt F .bf16) k := by
  have hi := idx1_0 t
  unfold iblk1
  rw [View.read_apply]
  show V c main_v6_1 _ = V c main_v6_1 _
  congr 1
  funext a
  apply Fin.ext
  match a with
  | ⟨0, _⟩ => show win1_0.index t 0 * 1000 + 1 * (x 0).val = (k 0).val; rw [hi.1, hk0]; omega
  | ⟨1, _⟩ => show win1_0.index t 1 * 10000 + 1 * (x 1).val = (k 1).val; rw [hi.2, hk1]; omega

/-- s2 is read whole at every point. -/
theorem iblk1_1_eq (c : Dev nD) (t : Fin cfg1.N) :
    (iblk1 V c 1 t : Vec F S10000x64 .bf16) = (V c main_v6_0 : S10000x64.Idx → Elt F .bf16) := by
  have hi := idx1_1 t
  funext x
  unfold iblk1
  rw [View.read_apply]
  show V c main_v6_0 _ = V c main_v6_0 _
  congr 1
  funext a
  apply Fin.ext
  match a with
  | ⟨0, _⟩ => show win1_1.index t 0 * 10000 + 1 * (x 0).val = (x 0).val; rw [hi.1]; omega
  | ⟨1, _⟩ => show win1_1.index t 1 * 64 + 1 * (x 1).val = (x 1).val; rw [hi.2]; omega

/-- The bias row b2 is read whole at every point. -/
theorem iblk1_2_eq (c : Dev nD) (t : Fin cfg1.N) :
    (iblk1 V c 2 t : Vec F S1x64 .f32) = (V c main_v4 : S1x64.Idx → Elt F .f32) := by
  have hi := idx1_2 t
  funext x
  unfold iblk1
  rw [View.read_apply]
  show V c main_v4 _ = V c main_v4 _
  congr 1
  funext a
  apply Fin.ext
  match a with
  | ⟨0, _⟩ => show win1_2.index t 0 * 1 + 1 * (x 0).val = (x 0).val; rw [hi.1]; omega
  | ⟨1, _⟩ => show win1_2.index t 1 * 64 + 1 * (x 1).val = (x 1).val; rw [hi.2]; omega

/-- W3 is read whole at every point. -/
theorem iblk1_3_eq (c : Dev nD) (t : Fin cfg1.N) :
    (iblk1 V c 3 t : Vec F S64x64 .bf16) = (V c main_v2 : S64x64.Idx → Elt F .bf16) := by
  have hi := idx1_3 t
  funext x
  unfold iblk1
  rw [View.read_apply]
  show V c main_v2 _ = V c main_v2 _
  congr 1
  funext a
  apply Fin.ext
  match a with
  | ⟨0, _⟩ => show win1_3.index t 0 * 64 + 1 * (x 0).val = (x 0).val; rw [hi.1]; omega
  | ⟨1, _⟩ => show win1_3.index t 1 * 64 + 1 * (x 1).val = (x 1).val; rw [hi.2]; omega

/-- The bias row b3 is read whole at every point. -/
theorem iblk1_4_eq (c : Dev nD) (t : Fin cfg1.N) :
    (iblk1 V c 4 t : Vec F S1x64 .f32) = (V c main_v5 : S1x64.Idx → Elt F .f32) := by
  have hi := idx1_4 t
  funext x
  unfold iblk1
  rw [View.read_apply]
  show V c main_v5 _ = V c main_v5 _
  congr 1
  funext a
  apply Fin.ext
  match a with
  | ⟨0, _⟩ => show win1_4.index t 0 * 1 + 1 * (x 0).val = (x 0).val; rw [hi.1]; omega
  | ⟨1, _⟩ => show win1_4.index t 1 * 64 + 1 * (x 1).val = (x 1).val; rw [hi.2]; omega

/-! ## The output blocks: where they sit, and that they cover the output -/

/-- An index of the output is in point t's block iff each coordinate is in the block's range on its axis. -/
theorem mem_blk1_5 (t : Fin cfg1.N) (i : S10000x64.Idx) :
    i ∈ ((cfg1.win 5).blk t).view.set ↔ ∀ a : Fin 2, win1_5.index t a * S1000x64.size a ≤ (i a).val
      ∧ (i a).val < win1_5.index t a * S1000x64.size a + S1000x64.size a := by
  show i ∈ ((View.whole main_v7).slice (win1_5.rect t)).set ↔ _
  rw [View.set_slice_whole, Rect.mem_set_unit]
  exact Iff.rfl

/-- The second-sweep point whose block holds row (i 0): 10 + row / 1000. -/
def outPt1 (i : S10000x64.Idx) : Fin cfg1.N :=
  ⟨10 + (i 0).val / 1000, by
    have h : (i 0).val < 10000 := (i 0).isLt
    have hN : cfg1.N = 20 := N_1
    omega⟩

/-- Every index of the output is in the block of a point that writes it back. -/
theorem cover1_5 (i : S10000x64.Idx) :
    ∃ t : Fin cfg1.N, (cfg1.win 5).flush t = true ∧ i ∈ ((cfg1.win 5).blk t).view.set := by
  have h0 : (i 0).val < 10000 := (i 0).isLt
  have h1 : (i 1).val < 64 := (i 1).isLt
  have ht : 10 ≤ (outPt1 i).val := Nat.le_add_right _ _
  obtain ⟨e0, e1⟩ := idx1_5 (outPt1 i) ht
  have hv : (outPt1 i).val = 10 + (i 0).val / 1000 := rfl
  refine ⟨outPt1 i, flush1_5 (outPt1 i) ht, ?_⟩
  rw [mem_blk1_5]
  intro a
  match a with
  | ⟨0, _⟩ =>
    show win1_5.index (outPt1 i) (0 : Fin 2) * 1000 ≤ (i 0).val ∧ (i 0).val < win1_5.index (outPt1 i) (0 : Fin 2) * 1000 + 1000
    rw [e0, hv]; omega
  | ⟨1, _⟩ =>
    show win1_5.index (outPt1 i) (1 : Fin 2) * 64 ≤ (i 1).val ∧ (i 1).val < win1_5.index (outPt1 i) (1 : Fin 2) * 64 + 64
    rw [e1]; omega

/-- An element of the output block at a point t of the second sweep sits at row 1000 (t − 10) + its row, same column. -/
theorem emb1_5 (t : Fin cfg1.N) (ht : 10 ≤ t.val) (x : S1000x64.Idx) :
    ((((cfg1.win 5).blk t).view.emb x : S10000x64.Idx) 0).val = 1000 * (t.val - 10) + (x 0).val
      ∧ ((((cfg1.win 5).blk t).view.emb x : S10000x64.Idx) 1).val = (x 1).val := by
  obtain ⟨e0, e1⟩ := idx1_5 t ht
  constructor
  · show win1_5.index t 0 * 1000 + 1 * (x 0).val = _; rw [e0]; omega
  · show win1_5.index t 1 * 64 + 1 * (x 1).val = _; rw [e1]; omega

end Cert.KernelIdeal.Hand

end
-- ==== Proof.KI.Values1S3.lean ====
/-
  The second kernel's scratch after its first sweep is s3 = relu(adj · s2 + b2) · W3, as one matrix of the arrays
  the region finds on entry.

  Row y of the scratch was stored by the first-sweep point y / 1000, as row y mod 1000 of that point's slab; the
  point's adjacency block is rows [1000 (y / 1000), 1000 (y / 1000) + 1000) of the adjacency, so its row y mod 1000 is
  row 1000 (y / 1000) + y mod 1000 = y of the adjacency; s2, b2 and W3 are read whole. Entry (y, q) of the slab
  formula is therefore entry (y, q) of the whole-matrix formula, sum by sum.
-/
import proofs.«168657_g4973572128804_cont_8to1_c_232_10_alg».proof.Proof.KI.Values1Pay
import proofs.«168657_g4973572128804_cont_8to1_c_232_10_alg».proof.Proof.KI.Values1Blocks
import proofs.«168657_g4973572128804_cont_8to1_c_232_10_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

/-- A row's place inside its slab, as a pair of coordinates. -/
theorem rowLoc1_eq (y : S10000x64.Idx) :
    rowLoc1 y = ix2 (⟨(y 0).val % 1000, Nat.mod_lt _ (by decide)⟩ : Fin 1000) (⟨(y 1).val, (y 1).isLt⟩ : Fin 64) := by
  funext a
  match a with
  | ⟨0, _⟩ => rfl
  | ⟨1, _⟩ => rfl

/-- A slab of s3 whose adjacency block's row p is row r of the whole adjacency: its entry (p, q) is entry (r, q) of
    relu(adj · s2 + b2) · W3. -/
theorem pay1_rows (v6 : FVec Ideal S1000x10000 .bf16) (A : FVec Ideal S10000x10000 .bf16) (B : FVec Ideal S10000x64 .bf16)
    (b : FVec Ideal S1x64 .f32) (W : FVec Ideal S64x64 .bf16) (p : Fin 1000) (r : Fin 10000) (q : Fin 64)
    (h : ∀ k : Fin 10000, v6 (ix2 p k) = A (ix2 r k)) :
    k1_pay1 (F := Ideal) v6 B b W (ix2 p q)
      = ofMat (mm (relu (addRow (mm (toMat A) (toMat B)) (toRow b))) (toMat W)) (ix2 r q) := by
  rw [k1_pay1_apply]
  show _ = ∑ j : Fin 64, max ((∑ k : Fin 10000, A (ix2 r k) * B (ix2 k j)) + b (ix2 (0 : Fin 1) j)) 0 * W (ix2 j q)
  refine Finset.sum_congr rfl fun j _ => ?_
  rw [show (∑ k : Fin 10000, v6 (ix2 p k) * B (ix2 k j)) = ∑ k : Fin 10000, A (ix2 r k) * B (ix2 k j) from
    Finset.sum_congr rfl fun k _ => by rw [h k]]

/-- The scratch after the first sweep is s3 = relu(adj · s2 + b2) · W3. -/
theorem S3_eq (c : Dev nD) : S3 (F := Ideal) V c =
    ofMat (mm (relu (addRow (mm (toMat (V c main_v6_1 : S10000x10000.Idx → EReal)) (toMat (V c main_v6_0 : S10000x64.Idx → EReal)))
      (toRow (V c main_v4 : S1x64.Idx → EReal)))) (toMat (V c main_v2 : S64x64.Idx → EReal))) := by
  funext y
  have hy0 : (y 0).val < 10000 := (y 0).isLt
  show k1_pay1 (F := Ideal) (iblk1 V c 0 (rowPt1 y)) (iblk1 V c 1 (rowPt1 y)) (iblk1 V c 2 (rowPt1 y)) (iblk1 V c 3 (rowPt1 y)) (rowLoc1 y) = _
  rw [rowLoc1_eq, iblk1_1_eq V c (rowPt1 y), iblk1_2_eq V c (rowPt1 y), iblk1_3_eq V c (rowPt1 y)]
  refine (pay1_rows (iblk1 V c 0 (rowPt1 y)) (V c main_v6_1) (V c main_v6_0) (V c main_v4) (V c main_v2)
    (⟨(y 0).val % 1000, Nat.mod_lt _ (by decide)⟩ : Fin 1000) (⟨(y 0).val, hy0⟩ : Fin 10000) (⟨(y 1).val, (y 1).isLt⟩ : Fin 64)
    (fun k => iblk1_0_apply V c (rowPt1 y) (ix2 (⟨(y 0).val % 1000, Nat.mod_lt _ (by decide)⟩ : Fin 1000) k) (ix2 (⟨(y 0).val, hy0⟩ : Fin 10000) k)
      (by show (y 0).val = 1000 * ((y 0).val / 1000 % 10) + (y 0).val % 1000; omega) rfl)).trans ?_
  rfl

end Cert.KernelIdeal.Hand

end
-- ==== Proof.KI.Values1OutE.lean ====
/-
  What the second kernel region leaves in its output array: adj · s3 + b3, for whatever matrix s3 its scratch holds
  after the first sweep.

  A point t of the second sweep (10 ≤ t < 20) stores, at (p, q) of its block, ∑ k, A_t[p,k] · s3[k,q] + b3[q], where
  the adjacency block A_t is rows [1000 (t − 10), 1000 (t − 10) + 1000) of the adjacency (t mod 10 = t − 10 there)
  and the block is written back to the same rows of the output. So each written-back block is its block of the one
  matrix adj · s3 + b3, and the ten blocks cover the output's 10000 rows.
-/
import proofs.«168657_g4973572128804_cont_8to1_c_232_10_alg».proof.Proof.KI.Values1Pay
import proofs.«168657_g4973572128804_cont_8to1_c_232_10_alg».proof.Proof.KI.Values1Blocks
import proofs.«168657_g4973572128804_cont_8to1_c_232_10_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

/-- A matrix written as an array, read at an index whose coordinates are (r, e). -/
theorem ofMat_atE {a b : ℕ} (M : Mat a b) (i : (⟨2, ![a, b]⟩ : Shape).Idx) (r : Fin a) (e : Fin b)
    (h0 : (i 0).val = r.val) (h1 : (i 1).val = e.val) : ofMat M i = M r e := by
  obtain rfl : r = ⟨(i 0).val, (i 0).isLt⟩ := Fin.ext h0.symm
  obtain rfl : e = ⟨(i 1).val, (i 1).isLt⟩ := Fin.ext h1.symm
  rfl

/-- A block of the output whose adjacency block's row p is row r of the whole adjacency: its entry (p, q) is entry
    (r, q) of adj · s3 + b3. -/
theorem pay2_rowsE (v6 : FVec Ideal S1000x10000 .bf16) (A : FVec Ideal S10000x10000 .bf16) (s3 : Mat 10000 64)
    (b : FVec Ideal S1x64 .f32) (p : Fin 1000) (r : Fin 10000) (q : Fin 64)
    (h : ∀ k : Fin 10000, v6 (ix2 p k) = A (ix2 r k)) :
    k1_pay2 (F := Ideal) v6 (ofMat s3) b (ix2 p q) = addRow (mm (toMat A) s3) (toRow b) r q := by
  rw [k1_pay2_apply]
  show _ = (∑ k : Fin 10000, A (ix2 r k) * s3 k q) + b (ix2 (0 : Fin 1) q)
  rw [show (∑ k : Fin 10000, v6 (ix2 p k) * ofMat s3 (ix2 k q)) = ∑ k : Fin 10000, A (ix2 r k) * s3 k q from
    Finset.sum_congr rfl fun k _ => by rw [h k]; rfl]

/-- What a point of the second sweep writes back is its block of adj · s3 + b3. -/
theorem flushed1_5_ofE (c : Dev nD) (s3 : Mat 10000 64) (hS : S3 (F := Ideal) V c = ofMat s3) (t : Fin cfg1.N)
    (hf : (cfg1.win 5).flush t = true) :
    (dat1 (F := Ideal) V c).flushed 5 t = ((cfg1.win 5).blk t).view.read (Elt Ideal)
      (ofMat (addRow (mm (toMat (V c main_v6_1 : S10000x10000.Idx → EReal)) s3) (toRow (V c main_v5 : S1x64.Idx → EReal)))) := by
  have ht : 10 ≤ t.val := by
    by_contra h
    rw [noFlush1_5 t (by omega)] at hf
    exact Bool.false_ne_true hf
  have hN : cfg1.N = 20 := N_1
  have htl : t.val < 20 := hN ▸ t.isLt
  show (cfg1.win 5).cut (grid1.coords t) ((dat1 V c).after 5 t) = _
  rw [after1_5, hS, iblk1_4_eq V c t]
  funext j
  obtain ⟨p, q, rfl⟩ : ∃ (p : Fin 1000) (q : Fin 64), j = ix2 p q := ⟨j 0, j 1, eq_ix2 j⟩
  rw [View.read_apply]
  obtain ⟨e0, e1⟩ := emb1_5 t ht (ix2 p q)
  have hp : p.val < 1000 := p.isLt
  have hx : (cfg1.win 5).xinj (grid1.coords t) (ix2 p q) = ix2 p q := funext fun a => by
    match a with
    | ⟨0, _⟩ => rfl
    | ⟨1, _⟩ => rfl
  show k1_pay2 (F := Ideal) (iblk1 V c 0 t) (ofMat s3) (V c main_v5) ((cfg1.win 5).xinj (grid1.coords t) (ix2 p q))
    = ofMat (addRow (mm (toMat (V c main_v6_1 : S10000x10000.Idx → EReal)) s3) (toRow (V c main_v5 : S1x64.Idx → EReal)))
        (((cfg1.win 5).blk t).view.emb (ix2 p q))
  rw [hx, ofMat_atE _ _ (⟨1000 * (t.val - 10) + p.val, by omega⟩ : Fin 10000) q e0 e1]
  exact pay2_rowsE (iblk1 V c 0 t) (V c main_v6_1) s3 (V c main_v5) p _ q
    (fun k => iblk1_0_apply V c t (ix2 p k) (ix2 (⟨1000 * (t.val - 10) + p.val, by omega⟩ : Fin 10000) k)
      (by show 1000 * (t.val - 10) + p.val = 1000 * (t.val % 10) + p.val; omega) rfl)

/-- The output array after the region is adj · s3 + b3 for whatever matrix s3 the scratch holds after the first sweep. -/
theorem arr1_5_ofE (c : Dev nD) (s3 : Mat 10000 64) (hS : S3 (F := Ideal) V c = ofMat s3) :
    (dat1 (F := Ideal) V c).arrAt 5 cfg1.N
      = ofMat (addRow (mm (toMat (V c main_v6_1 : S10000x10000.Idx → EReal)) s3) (toRow (V c main_v5 : S1x64.Idx → EReal))) :=
  (dat1 (F := Ideal) V c).arrAt_eq_of_cover 5 _ (flushed1_5_ofE V c s3 hS) cover1_5

end Cert.KernelIdeal.Hand

end
-- ==== Proof.KI.Values1.lean ====
/-
  What the second kernel region leaves in its output array, as one function of the arrays it finds on entry:
  out = adj · s3 + b3 with s3 = relu(adj · s2 + b2) · W3.
-/
import proofs.«168657_g4973572128804_cont_8to1_c_232_10_alg».proof.Proof.KI.Values1S3
import proofs.«168657_g4973572128804_cont_8to1_c_232_10_alg».proof.Proof.KI.Values1OutE

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

/-- The second kernel's result as a matrix: adj · s3 + b3 with s3 = relu(adj · s2 + b2) · W3, over the arrays the
    region finds (adj its bf16 copy, s2 the first kernel's output, b2 and b3 as rows, W3). -/
def outMat (c : Dev nD) : Mat 10000 64 :=
  addRow (mm (toMat (V c main_v6_1 : S10000x10000.Idx → EReal))
    (mm (relu (addRow (mm (toMat (V c main_v6_1 : S10000x10000.Idx → EReal)) (toMat (V c main_v6_0 : S10000x64.Idx → EReal)))
      (toRow (V c main_v4 : S1x64.Idx → EReal)))) (toMat (V c main_v2 : S64x64.Idx → EReal))))
    (toRow (V c main_v5 : S1x64.Idx → EReal))

/-- The output array after the region is adj · s3 + b3. -/
theorem arr1_5 (c : Dev nD) : (dat1 (F := Ideal) V c).arrAt 5 cfg1.N = ofMat (outMat V c) :=
  arr1_5_ofE V c _ (S3_eq V c)

end Cert.KernelIdeal.Hand

end
-- ==== Proof.KI.Final.lean ====
/-
  The value of the program's result on the extended reals: the last boundary's contents at the result buffer are
  the three-layer graph convolution of the launch arrays.

  The second region leaves adj · s3 + b3 with s3 = relu(adj · s2 + b2) · W3 of its entry contents; there the
  adjacency is the first region's bf16 copy, which on the extended reals is the adjacency itself, and s2 is the first
  region's relu(adj · (x · W1) + b1) · W2. The host stretch only changes formats (the identity on the extended
  reals) and recasts each bias vector as one row. Unfolding one layer's definition, the two sides are one term.
-/
import proofs.«168657_g4973572128804_cont_8to1_c_232_10_alg».proof.Proof.KI.Frame
import proofs.«168657_g4973572128804_cont_8to1_c_232_10_alg».proof.Proof.KI.Values0
import proofs.«168657_g4973572128804_cont_8to1_c_232_10_alg».proof.Proof.KI.Values1
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (m : (ℓ : Loc nD τ sig) → Buf (Elt Ideal) ℓ)

/-! ## The host stretch's results, read back -/

theorem B1_v0 (c : Dev nD) :
    toMat (B1 m c (Proc.devRef .tc main_v0) : S128x128.Idx → EReal) = toMat (m ((c : Thread nD τ).loc main_arg2) : S128x128.Idx → EReal) := by
  have e : (B1 m c (Proc.devRef .tc main_v0) : S128x128.Idx → EReal) = (m ((c : Thread nD τ).loc main_arg2) : S128x128.Idx → EReal) := by
    show StableHlo.after hostOps0 (fun b => m (c, b)) (Proc.devRef .tc main_v0) = _
    after_results; rfl
  rw [e]

theorem B1_v1 (c : Dev nD) :
    toMat (B1 m c (Proc.devRef .tc main_v1) : S128x64.Idx → EReal) = toMat (m ((c : Thread nD τ).loc main_arg4) : S128x64.Idx → EReal) := by
  have e : (B1 m c (Proc.devRef .tc main_v1) : S128x64.Idx → EReal) = (m ((c : Thread nD τ).loc main_arg4) : S128x64.Idx → EReal) := by
    show StableHlo.after hostOps0 (fun b => m (c, b)) (Proc.devRef .tc main_v1) = _
    after_results; rfl
  rw [e]

theorem B1_v2 (c : Dev nD) :
    toMat (B1 m c (Proc.devRef .tc main_v2) : S64x64.Idx → EReal) = toMat (m ((c : Thread nD τ).loc main_arg6) : S64x64.Idx → EReal) := by
  have e : (B1 m c (Proc.devRef .tc main_v2) : S64x64.Idx → EReal) = (m ((c : Thread nD τ).loc main_arg6) : S64x64.Idx → EReal) := by
    show StableHlo.after hostOps0 (fun b => m (c, b)) (Proc.devRef .tc main_v2) = _
    after_results; rfl
  rw [e]

theorem B1_v3 (c : Dev nD) :
    toRow (B1 m c (Proc.devRef .tc main_v3) : S1x128.Idx → EReal) = toVec (m ((c : Thread nD τ).loc main_arg3) : S128.Idx → EReal) := by
  have e : (B1 m c (Proc.devRef .tc main_v3) : S1x128.Idx → EReal)
      = shapeCast S1x128 (m ((c : Thread nD τ).loc main_arg3) : S128.Idx → EReal) shapeCasts_S128_S1x128 := by
    show StableHlo.after hostOps0 (fun b => m (c, b)) (Proc.devRef .tc main_v3) = _
    after_results; rfl
  rw [e]
  exact funext fun q => shapeCast_a_1a_apply _ shapeCasts_S128_S1x128 0 q

theorem B1_v4 (c : Dev nD) :
    toRow (B1 m c (Proc.devRef .tc main_v4) : S1x64.Idx → EReal) = toVec (m ((c : Thread nD τ).loc main_arg5) : S64.Idx → EReal) := by
  have e : (B1 m c (Proc.devRef .tc main_v4) : S1x64.Idx → EReal)
      = shapeCast S1x64 (m ((c : Thread nD τ).loc main_arg5) : S64.Idx → EReal) shapeCasts_S64_S1x64 := by
    show StableHlo.after hostOps0 (fun b => m (c, b)) (Proc.devRef .tc main_v4) = _
    after_results; rfl
  rw [e]
  exact funext fun q => shapeCast_a_1a_apply _ shapeCasts_S64_S1x64 0 q

theorem B1_v5 (c : Dev nD) :
    toRow (B1 m c (Proc.devRef .tc main_v5) : S1x64.Idx → EReal) = toVec (m ((c : Thread nD τ).loc main_arg7) : S64.Idx → EReal) := by
  have e : (B1 m c (Proc.devRef .tc main_v5) : S1x64.Idx → EReal)
      = shapeCast S1x64 (m ((c : Thread nD τ).loc main_arg7) : S64.Idx → EReal) shapeCasts_S64_S1x64 := by
    show StableHlo.after hostOps0 (fun b => m (c, b)) (Proc.devRef .tc main_v5) = _
    after_results; rfl
  rw [e]
  exact funext fun q => shapeCast_a_1a_apply _ shapeCasts_S64_S1x64 0 q

/-! ## The regions' entry contents, in terms of the launch arrays -/

theorem E1_arg0 (c : Dev nD) : (E1 m c main_arg0 : S10000x128.Idx → EReal) = (m ((c : Thread nD τ).loc main_arg0) : S10000x128.Idx → EReal) :=
  Gen.V1_of m c main_arg0 (by decide)
theorem E1_arg1 (c : Dev nD) : (E1 m c main_arg1 : S10000x10000.Idx → EReal) = (m ((c : Thread nD τ).loc main_arg1) : S10000x10000.Idx → EReal) :=
  Gen.V1_of m c main_arg1 (by decide)
theorem E1_v0 (c : Dev nD) : toMat (E1 m c main_v0 : S128x128.Idx → EReal) = toMat (m ((c : Thread nD τ).loc main_arg2) : S128x128.Idx → EReal) := B1_v0 m c
theorem E1_v1 (c : Dev nD) : toMat (E1 m c main_v1 : S128x64.Idx → EReal) = toMat (m ((c : Thread nD τ).loc main_arg4) : S128x64.Idx → EReal) := B1_v1 m c
theorem E1_v3 (c : Dev nD) : toRow (E1 m c main_v3 : S1x128.Idx → EReal) = toVec (m ((c : Thread nD τ).loc main_arg3) : S128.Idx → EReal) := B1_v3 m c

/-- What the first region leaves as s2, in the launch arrays: relu(adj · (x · W1) + b1) · W2. -/
theorem s2_eq (c : Dev nD) :
    s2Mat (E1 m) c = mm (relu (conv (toMat (m ((c : Thread nD τ).loc main_arg1) : S10000x10000.Idx → EReal)) (toMat (m ((c : Thread nD τ).loc main_arg0) : S10000x128.Idx → EReal)) (toMat (m ((c : Thread nD τ).loc main_arg2) : S128x128.Idx → EReal)) (toVec (m ((c : Thread nD τ).loc main_arg3) : S128.Idx → EReal)))) (toMat (m ((c : Thread nD τ).loc main_arg4) : S128x64.Idx → EReal)) := by
  unfold s2Mat conv
  rw [E1_arg0, E1_arg1, E1_v0, E1_v1, E1_v3]

/-- The second region finds the adjacency itself where the first left its bf16 copy, -/
theorem E2_v6_1 (c : Dev nD) : (E2 m c main_v6_1 : S10000x10000.Idx → EReal) = ofMat (toMat (m ((c : Thread nD τ).loc main_arg1) : S10000x10000.Idx → EReal)) :=
  (B2_arr m c 6).trans ((arr0_6 (E1 m) c).trans (by rw [E1_arg1]))
/-- s2 where the first region left it, -/
theorem E2_v6_0 (c : Dev nD) : (E2 m c main_v6_0 : S10000x64.Idx → EReal) = ofMat (s2Mat (E1 m) c) :=
  (B2_arr m c 5).trans (arr0_5 (E1 m) c)
/-- and the host stretch's results untouched by the first region. -/
theorem E2_v2 (c : Dev nD) : toMat (E2 m c main_v2 : S64x64.Idx → EReal) = toMat (m ((c : Thread nD τ).loc main_arg6) : S64x64.Idx → EReal) := by
  rw [show (E2 m c main_v2 : S64x64.Idx → EReal) = B1 m c (Proc.devRef .tc main_v2) from B2_of_ne m c main_v2 (by decide)]
  exact B1_v2 m c
theorem E2_v4 (c : Dev nD) : toRow (E2 m c main_v4 : S1x64.Idx → EReal) = toVec (m ((c : Thread nD τ).loc main_arg5) : S64.Idx → EReal) := by
  rw [show (E2 m c main_v4 : S1x64.Idx → EReal) = B1 m c (Proc.devRef .tc main_v4) from B2_of_ne m c main_v4 (by decide)]
  exact B1_v4 m c
theorem E2_v5 (c : Dev nD) : toRow (E2 m c main_v5 : S1x64.Idx → EReal) = toVec (m ((c : Thread nD τ).loc main_arg7) : S64.Idx → EReal) := by
  rw [show (E2 m c main_v5 : S1x64.Idx → EReal) = B1 m c (Proc.devRef .tc main_v5) from B2_of_ne m c main_v5 (by decide)]
  exact B1_v5 m c

/-! ## The result -/

/-- The result buffer at the end of the run holds the three-layer graph convolution of the launch arrays. -/
theorem out_eq (c : Dev nD) :
    (B3 m c (Proc.devRef .tc main_v7) : S10000x64.Idx → EReal)
      = ofMat (gcn (toMat (m ((c : Thread nD τ).loc main_arg0) : S10000x128.Idx → EReal)) (toMat (m ((c : Thread nD τ).loc main_arg1) : S10000x10000.Idx → EReal)) (toMat (m ((c : Thread nD τ).loc main_arg2) : S128x128.Idx → EReal)) (toVec (m ((c : Thread nD τ).loc main_arg3) : S128.Idx → EReal))
          (toMat (m ((c : Thread nD τ).loc main_arg4) : S128x64.Idx → EReal)) (toVec (m ((c : Thread nD τ).loc main_arg5) : S64.Idx → EReal)) (toMat (m ((c : Thread nD τ).loc main_arg6) : S64x64.Idx → EReal)) (toVec (m ((c : Thread nD τ).loc main_arg7) : S64.Idx → EReal))) := by
  refine (B3_arr m c 5).trans ((arr1_5 (E2 m) c).trans ?_)
  unfold outMat gcn
  rw [E2_v6_1, E2_v6_0, E2_v2, E2_v4, E2_v5, toMat_ofMat, toMat_ofMat, s2_eq]
  rfl

/-- Every weakly fair execution terminates with the result buffer at the graph convolution of the launch arrays and
    every argument as launched. -/
theorem value_all (ρ : Dev nD → PrngReg) : θ_run defs (onTc (τ := τ) (main (F := Ideal))) ⟨m, fun _ => 0, ρ⟩ (fun r => ∀ c : Dev nD,
      (r.2.mem ((c.tc : Thread nD τ).loc main_v7) : S10000x64.Idx → EReal)
        = ofMat (gcn (toMat (m ((c : Thread nD τ).loc main_arg0) : S10000x128.Idx → EReal)) (toMat (m ((c : Thread nD τ).loc main_arg1) : S10000x10000.Idx → EReal)) (toMat (m ((c : Thread nD τ).loc main_arg2) : S128x128.Idx → EReal)) (toVec (m ((c : Thread nD τ).loc main_arg3) : S128.Idx → EReal))
            (toMat (m ((c : Thread nD τ).loc main_arg4) : S128x64.Idx → EReal)) (toVec (m ((c : Thread nD τ).loc main_arg5) : S64.Idx → EReal)) (toMat (m ((c : Thread nD τ).loc main_arg6) : S64x64.Idx → EReal)) (toVec (m ((c : Thread nD τ).loc main_arg7) : S64.Idx → EReal)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v7 (by decide))).trans (out_eq m c),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c)⟩)
    (run_all m ρ)

end Cert.KernelIdeal.Hand

end
-- ==== Proof.RefSide.lean ====
/-
  The reference's side: its run, read one operation at a time, ends with its result array holding the three-layer
  graph convolution of its argument arrays.

  The reference is three layers of the same four steps: a product with a weight matrix, a product with the
  adjacency matrix, a bias vector added to every row, and (after the first two layers) the maximum with zero.
  Each product's entry (r, e) is a sum over the contracted axis of a row-r entry times a column-e entry, which is
  the entry of the matrix product; the bias is laid out as one row and repeated, so at (r, e) it is its entry e;
  the zero it is compared with is the zero constant at every index. Stage by stage the array written is the
  matrix the specification names, so the last stage is the specification itself. Nothing here uses finiteness:
  only the shape of the sums.
-/
import proofs.«168657_g4973572128804_cont_8to1_c_232_10_alg».proof.Proof.Gen.ReferenceIdeal.Run
import proofs.«168657_g4973572128804_cont_8to1_c_232_10_alg».proof.Proof.Gen.ReferenceIdeal.Read
import proofs.«168657_g4973572128804_cont_8to1_c_232_10_alg».proof.Proof.Spec

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read Cert.Spec

/-! ## The shape every product is read in -/

/-- A sum over the contracted axis whose left factor is read along row `r` and whose right factor is read down
    column `e` is the entry (r, e) of the matrix product. -/
theorem sum_eq_mm {a k b : ℕ} (L : (⟨2, ![a, k]⟩ : Shape).Idx → EReal) (R : (⟨2, ![k, b]⟩ : Shape).Idx → EReal)
    (li : Fin k → (⟨2, ![a, k]⟩ : Shape).Idx) (ri : Fin k → (⟨2, ![k, b]⟩ : Shape).Idx) (r : Fin a) (e : Fin b)
    (hl : ∀ j, li j = ix2 r j) (hr : ∀ j, ri j = ix2 j e) :
    ∑ j : Fin k, L (li j) * R (ri j) = mm (toMat L) (toMat R) r e := by
  show _ = ∑ j : Fin k, L (ix2 r j) * R (ix2 j e)
  exact Finset.sum_congr rfl fun j _ => by rw [hl j, hr j]

/-! ## The first layer: h1 = relu(adj · (x · W1) + b1) -/

/-- x · W1. -/
theorem stage0 (x0 : (⟨S10000x128, .f32⟩ : BufTy).Contents (Elt Ideal)) (x2 : (⟨S128x128, .f32⟩ : BufTy).Contents (Elt Ideal)) :
    val_main_v0 (F := Ideal) x0 x2 = ofMat (mm (toMat x0) (toMat x2)) := by
  funext i
  obtain ⟨r, e, rfl⟩ : ∃ (r : Fin 10000) (e : Fin 128), i = ix2 r e := ⟨i 0, i 1, eq_ix2 i⟩
  rw [val_main_v0_apply]
  exact sum_eq_mm x0 x2 _ _ r e (fun k => funext fun a => Fin.ext (by match a with | ⟨0, _⟩ => rfl | ⟨1, _⟩ => rfl)) (fun k => funext fun a => Fin.ext (by match a with | ⟨0, _⟩ => rfl | ⟨1, _⟩ => rfl))

/-- adj · (x · W1). -/
theorem stage1 (x0 : (⟨S10000x128, .f32⟩ : BufTy).Contents (Elt Ideal)) (x1 : (⟨S10000x10000, .f32⟩ : BufTy).Contents (Elt Ideal)) (x2 : (⟨S128x128, .f32⟩ : BufTy).Contents (Elt Ideal)) :
    val_main_v1 (F := Ideal) x0 x1 x2 = ofMat (mm (toMat x1) (mm (toMat x0) (toMat x2))) := by
  funext i
  obtain ⟨r, e, rfl⟩ : ∃ (r : Fin 10000) (e : Fin 128), i = ix2 r e := ⟨i 0, i 1, eq_ix2 i⟩
  rw [val_main_v1_apply, stage0 x0 x2]
  exact sum_eq_mm x1 (ofMat (mm (toMat x0) (toMat x2))) _ _ r e (fun k => funext fun a => Fin.ext (by match a with | ⟨0, _⟩ => rfl | ⟨1, _⟩ => rfl)) (fun k => funext fun a => Fin.ext (by match a with | ⟨0, _⟩ => rfl | ⟨1, _⟩ => rfl))

/-- The bias vector, laid out as one row and repeated down the rows, read at (r, e) is its entry e. -/
theorem bias3 (x3 : (⟨S128, .f32⟩ : BufTy).Contents (Elt Ideal)) (r : Fin 10000) (e : Fin 128) :
    val_main_v3 (F := Ideal) x3 (ix2 r e) = toVec x3 e := by
  rw [val_main_v3_apply, val_main_v2_apply]
  exact congrArg x3 (funext fun a => Fin.ext (by match a with | ⟨0, _⟩ => rfl))

/-- adj · (x · W1) + b1. -/
theorem stage4 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v4 (F := Ideal) x0 x1 x2 x3 = ofMat (conv (toMat x1) (toMat x0) (toMat x2) (toVec x3)) := by
  funext i
  obtain ⟨r, e, rfl⟩ : ∃ (r : Fin 10000) (e : Fin 128), i = ix2 r e := ⟨i 0, i 1, eq_ix2 i⟩
  rw [val_main_v4_apply, stage1 x0 x1 x2, bias3 x3 r e]
  rfl

/-- The zero constant repeated over the whole array is zero at every index. -/
theorem zero0 (i : S10000x128.Idx) : val_main_call0_v0 (F := Ideal) i = (0 : EReal) := by
  rw [val_main_call0_v0_apply, val_main_call0_cst_apply]
  exact Ideal.ofBits_zero_f32

/-- h1. -/
theorem stage5 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = ofMat (relu (conv (toMat x1) (toMat x0) (toMat x2) (toVec x3))) := by
  funext i
  obtain ⟨r, e, rfl⟩ : ∃ (r : Fin 10000) (e : Fin 128), i = ix2 r e := ⟨i 0, i 1, eq_ix2 i⟩
  rw [val_main_v5_apply, stage4 x0 x1 x2 x3, zero0]
  rfl

/-! ## The second layer: h2 = relu(adj · (h1 · W2) + b2) -/

/-- h1 · W2. -/
theorem stage6 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v6 (F := Ideal) x0 x1 x2 x3 x4 = ofMat (mm (relu (conv (toMat x1) (toMat x0) (toMat x2) (toVec x3))) (toMat x4)) := by
  funext i
  obtain ⟨r, e, rfl⟩ : ∃ (r : Fin 10000) (e : Fin 64), i = ix2 r e := ⟨i 0, i 1, eq_ix2 i⟩
  rw [val_main_v6_apply, stage5 x0 x1 x2 x3]
  exact sum_eq_mm (ofMat (relu (conv (toMat x1) (toMat x0) (toMat x2) (toVec x3)))) x4 _ _ r e (fun k => funext fun a => Fin.ext (by match a with | ⟨0, _⟩ => rfl | ⟨1, _⟩ => rfl)) (fun k => funext fun a => Fin.ext (by match a with | ⟨0, _⟩ => rfl | ⟨1, _⟩ => rfl))

/-- adj · (h1 · W2). -/
theorem stage7 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v7 (F := Ideal) x0 x1 x2 x3 x4 = ofMat (mm (toMat x1) (mm (relu (conv (toMat x1) (toMat x0) (toMat x2) (toVec x3))) (toMat x4))) := by
  funext i
  obtain ⟨r, e, rfl⟩ : ∃ (r : Fin 10000) (e : Fin 64), i = ix2 r e := ⟨i 0, i 1, eq_ix2 i⟩
  rw [val_main_v7_apply, stage6 x0 x1 x2 x3 x4]
  exact sum_eq_mm x1 (ofMat (mm (relu (conv (toMat x1) (toMat x0) (toMat x2) (toVec x3))) (toMat x4))) _ _ r e (fun k => funext fun a => Fin.ext (by match a with | ⟨0, _⟩ => rfl | ⟨1, _⟩ => rfl)) (fun k => funext fun a => Fin.ext (by match a with | ⟨0, _⟩ => rfl | ⟨1, _⟩ => rfl))

/-- The bias vector, laid out as one row and repeated down the rows, read at (r, e) is its entry e. -/
theorem bias9 (x5 : (⟨S64, .f32⟩ : BufTy).Contents (Elt Ideal)) (r : Fin 10000) (e : Fin 64) :
    val_main_v9 (F := Ideal) x5 (ix2 r e) = toVec x5 e := by
  rw [val_main_v9_apply, val_main_v8_apply]
  exact congrArg x5 (funext fun a => Fin.ext (by match a with | ⟨0, _⟩ => rfl))

/-- adj · (h1 · W2) + b2. -/
theorem stage10 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v10 (F := Ideal) x0 x1 x2 x3 x4 x5 = ofMat (conv (toMat x1) (relu (conv (toMat x1) (toMat x0) (toMat x2) (toVec x3))) (toMat x4) (toVec x5)) := by
  funext i
  obtain ⟨r, e, rfl⟩ : ∃ (r : Fin 10000) (e : Fin 64), i = ix2 r e := ⟨i 0, i 1, eq_ix2 i⟩
  rw [val_main_v10_apply, stage7 x0 x1 x2 x3 x4, bias9 x5 r e]
  rfl

/-- The zero constant repeated over the whole array is zero at every index. -/
theorem zero1 (i : S10000x64.Idx) : val_main_call1_v0 (F := Ideal) i = (0 : EReal) := by
  rw [val_main_call1_v0_apply, val_main_call1_cst_apply]
  exact Ideal.ofBits_zero_f32

/-- h2. -/
theorem stage11 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v11 (F := Ideal) x0 x1 x2 x3 x4 x5 = ofMat (relu (conv (toMat x1) (relu (conv (toMat x1) (toMat x0) (toMat x2) (toVec x3))) (toMat x4) (toVec x5))) := by
  funext i
  obtain ⟨r, e, rfl⟩ : ∃ (r : Fin 10000) (e : Fin 64), i = ix2 r e := ⟨i 0, i 1, eq_ix2 i⟩
  rw [val_main_v11_apply, stage10 x0 x1 x2 x3 x4 x5, zero1]
  rfl

/-! ## The third layer: out = adj · (h2 · W3) + b3 -/

/-- h2 · W3. -/
theorem stage12 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) :
    val_main_v12 (F := Ideal) x0 x1 x2 x3 x4 x5 x6 = ofMat (mm (relu (conv (toMat x1) (relu (conv (toMat x1) (toMat x0) (toMat x2) (toVec x3))) (toMat x4) (toVec x5))) (toMat x6)) := by
  funext i
  obtain ⟨r, e, rfl⟩ : ∃ (r : Fin 10000) (e : Fin 64), i = ix2 r e := ⟨i 0, i 1, eq_ix2 i⟩
  rw [val_main_v12_apply, stage11 x0 x1 x2 x3 x4 x5]
  exact sum_eq_mm (ofMat (relu (conv (toMat x1) (relu (conv (toMat x1) (toMat x0) (toMat x2) (toVec x3))) (toMat x4) (toVec x5)))) x6 _ _ r e (fun k => funext fun a => Fin.ext (by match a with | ⟨0, _⟩ => rfl | ⟨1, _⟩ => rfl)) (fun k => funext fun a => Fin.ext (by match a with | ⟨0, _⟩ => rfl | ⟨1, _⟩ => rfl))

/-- adj · (h2 · W3). -/
theorem stage13 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) :
    val_main_v13 (F := Ideal) x0 x1 x2 x3 x4 x5 x6 = ofMat (mm (toMat x1) (mm (relu (conv (toMat x1) (relu (conv (toMat x1) (toMat x0) (toMat x2) (toVec x3))) (toMat x4) (toVec x5))) (toMat x6))) := by
  funext i
  obtain ⟨r, e, rfl⟩ : ∃ (r : Fin 10000) (e : Fin 64), i = ix2 r e := ⟨i 0, i 1, eq_ix2 i⟩
  rw [val_main_v13_apply, stage12 x0 x1 x2 x3 x4 x5 x6]
  exact sum_eq_mm x1 (ofMat (mm (relu (conv (toMat x1) (relu (conv (toMat x1) (toMat x0) (toMat x2) (toVec x3))) (toMat x4) (toVec x5))) (toMat x6))) _ _ r e (fun k => funext fun a => Fin.ext (by match a with | ⟨0, _⟩ => rfl | ⟨1, _⟩ => rfl)) (fun k => funext fun a => Fin.ext (by match a with | ⟨0, _⟩ => rfl | ⟨1, _⟩ => rfl))

/-- The bias vector, laid out as one row and repeated down the rows, read at (r, e) is its entry e. -/
theorem bias15 (x7 : (⟨S64, .f32⟩ : BufTy).Contents (Elt Ideal)) (r : Fin 10000) (e : Fin 64) :
    val_main_v15 (F := Ideal) x7 (ix2 r e) = toVec x7 e := by
  rw [val_main_v15_apply, val_main_v14_apply]
  exact congrArg x7 (funext fun a => Fin.ext (by match a with | ⟨0, _⟩ => rfl))

/-- The reference's result array is the three-layer graph convolution of its argument arrays. -/
theorem result_gcn (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v16 (F := Ideal) x0 x1 x2 x3 x4 x5 x6 x7
      = ofMat (gcn (toMat x0) (toMat x1) (toMat x2) (toVec x3) (toMat x4) (toVec x5) (toMat x6) (toVec x7)) := by
  funext i
  obtain ⟨r, e, rfl⟩ : ∃ (r : Fin 10000) (e : Fin 64), i = ix2 r e := ⟨i 0, i 1, eq_ix2 i⟩
  rw [val_main_v16_apply, stage13 x0 x1 x2 x3 x4 x5 x6, bias15 x7 r e]
  rfl

/-! ## The reference's run -/

/-- Every weakly fair execution of the reference ends with its result array holding the three-layer graph
    convolution of the argument arrays it was launched with, and those arrays unchanged. -/
theorem run_gcn (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v16)
        = ofMat (gcn (toMat (a := 10000) (b := 128) (m' ((c.tc : Thread nD τ).loc main_arg0))) (toMat (a := 10000) (b := 10000) (m' ((c.tc : Thread nD τ).loc main_arg1))) (toMat (a := 128) (b := 128) (m' ((c.tc : Thread nD τ).loc main_arg2))) (toVec (b := 128) (m' ((c.tc : Thread nD τ).loc main_arg3)))
          (toMat (a := 128) (b := 64) (m' ((c.tc : Thread nD τ).loc main_arg4))) (toVec (b := 64) (m' ((c.tc : Thread nD τ).loc main_arg5))) (toMat (a := 64) (b := 64) (m' ((c.tc : Thread nD τ).loc main_arg6))) (toVec (b := 64) (m' ((c.tc : Thread nD τ).loc main_arg7))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  (θ_run _ _ _).mono (fun _ h c => ⟨(h c).1.trans ((val_main_v16_eq _ _ _ _ _ _ _ _).trans (result_gcn _ _ _ _ _ _ _ _)), (h c).2⟩)
    (Cert.ReferenceIdeal.Value.run (F := Ideal) m' ρ')

/-- The same run with the result dropped: the reference terminates and leaves its argument arrays unchanged. -/
theorem frame_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => (h c).2) (Cert.ReferenceIdeal.Value.run (F := Ideal) m g)

end Cert.RefSide

end
-- ==== Proof.lean ====
/-
  The certificate: the word-level kernel, its reading on the extended reals and the reference all run to the end
  with their argument arrays unchanged, and the kernel's reading and the reference end with equal results.

  The kernel is a three-layer graph convolution with a dense adjacency, out = adj · (h2 · W3) + b3 with
  h2 = relu(adj · (h1 · W2) + b2) and h1 = relu(adj · (x · W1) + b1), computed in two passes over row blocks of the
  adjacency: the first pass keeps x · W1 in a scratch buffer, stores s2 = h1 · W2 block by block and a bf16 copy of
  the adjacency; the second sweeps that copy twice, first filling a scratch with s3 = h2 · W3 slab by slab, then
  storing adj · s3 + b3. On the extended reals a change of float format is the identity, so both programs compute
  the same sums, maxima and products, in the same arrangement: no law of arithmetic beyond the definitions is used,
  and the precondition (finite inputs) is never opened. The ideal pass rewrote nothing, so the sanctioned-idealization
  claim is trivial.
-/
import proofs.«168657_g4973572128804_cont_8to1_c_232_10_alg».proof.Defs
import proofs.«168657_g4973572128804_cont_8to1_c_232_10_alg».proof.Proof.Gen.Kernel
import proofs.«168657_g4973572128804_cont_8to1_c_232_10_alg».proof.Proof.Gen.KernelIdeal
import proofs.«168657_g4973572128804_cont_8to1_c_232_10_alg».proof.Proof.Gen.ReferenceIdeal
import proofs.«168657_g4973572128804_cont_8to1_c_232_10_alg».proof.Proof.Gen.Pre_finite_inputs
import proofs.«168657_g4973572128804_cont_8to1_c_232_10_alg».proof.Proof.K.Frame
import proofs.«168657_g4973572128804_cont_8to1_c_232_10_alg».proof.Proof.KI.Final
import proofs.«168657_g4973572128804_cont_8to1_c_232_10_alg».proof.Proof.RefSide

noncomputable section

namespace Cert.Proof

open Idealize.ShloMosaic Idealize.SL.Sem

/-- The word-level kernel runs to the end and leaves its arguments as launched. -/
theorem frame_k : Cert.frame_Kernel := fun m ρ _ => Cert.Kernel.Hand.frame_all m ρ

/-- So does its reading on the extended reals. -/
theorem frame_ki : Cert.frame_KernelIdeal := fun m ρ _ => Cert.KernelIdeal.Hand.frame_all m ρ

/-- So does the reference. -/
theorem frame_ri : Cert.frame_ReferenceIdeal := fun m g _ => Cert.RefSide.frame_ref m g

/-- The ideal pass rewrote no operation. -/
theorem preserves : Cert.preserves_Kernel_KernelIdeal := trivial

/-- From memories agreeing on the arguments both programs end with the graph convolution of those arguments. -/
theorem algebraic : Cert.algebraic_KernelIdeal_ReferenceIdeal := by
  intro m ρ m' ρ' _ hagree
  refine ⟨_, Cert.KernelIdeal.Hand.value_all m ρ, ?_⟩
  refine (θ_run Cert.ReferenceIdeal.defs _ _).mono (fun _ h c => ⟨(h c).1.trans ?_, (h c).2⟩) (Cert.RefSide.run_gcn m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
